-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S64x40 .f32) (main_arg6 : FVec F S64x40 .f32) (main_arg7 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x40 .f32 := Host.absf main_arg5
  let main_cst_6 : FVec F S_ .f32 := constant S_ .f32 0x7F800000#32
  let main_v20 : FVec F S64x40 .f32 := broadcastInDim S64x40 ![] bcast_S_S64x40 main_cst_6
  let main_v21 : IVec S64x40 1 := cmpf .olt main_v19 main_v20
  let main_c_7 : IVec S_ 1 := constantI S_ 1 1#1
  let main_v22 : IVec S_ 1 := (fun x v => Host.reduce IntOp.andi x v reducesTo_S64x40_S_d0_1 h_S_) main_v21 main_c_7
  let main_v23 : IVec S_ 1 := andi main_v18 main_v22
  let main_v24 : FVec F S64x40 .f32 := Host.absf main_arg6
  let main_cst_8 : FVec F S_ .f32 := constant S_ .f32 0x7F800000#32
  let main_v25 : FVec F S64x40 .f32 := broadcastInDim S64x40 ![] bcast_S_S64x40 main_cst_8
  let main_v26 : IVec S64x40 1 := cmpf .olt main_v24 main_v25
  let main_c_9 : IVec S_ 1 := constantI S_ 1 1#1
  let main_v27 : IVec S_ 1 := (fun x v => Host.reduce IntOp.andi x v reducesTo_S64x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x64 .f32) (main_arg1 : IVec S2x800000 32) (main_arg2 : FVec F S64x64 .f32) (main_arg3 : FVec F S64x64 .f32) (main_arg4 : FVec F S64 .f32) (main_arg5 : FVec F S64x40 .f32) (main_arg6 : FVec F S64x40 .f32) (main_arg7 : FVec F S40 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S1x64 : Shape := ⟨2, ![1, 64]⟩
abbrev S5000x64 : Shape := ⟨2, ![5000, 64]⟩
abbrev S1x40 : Shape := ⟨2, ![1, 40]⟩
abbrev S50000x40 : Shape := ⟨2, ![50000, 40]⟩
abbrev S5000x40 : Shape := ⟨2, ![5000, 40]⟩
abbrev S5000 : Shape := ⟨1, ![5000]⟩
abbrev S5000x1 : Shape := ⟨2, ![5000, 1]⟩

abbrev nBuf : Space → Nat
  | .hbm => 90
  | .vmem => 18
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x40, .f32⟩
  | .hbm, ⟨6, _⟩ => ⟨S64x40, .f32⟩
  | .hbm, ⟨7, _⟩ => ⟨S40, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000, .f32⟩
  | .hbm, ⟨38, _⟩ => ⟨S800000, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000, .f32⟩
  | .hbm, ⟨48, _⟩ => ⟨S800000, .f32⟩
  | .hbm, ⟨49, _⟩ => ⟨S800000, .i1⟩
  | .hbm, ⟨50, _⟩ => ⟨S_, .f32⟩
  | .hbm, ⟨51, _⟩ => ⟨S_, .f32⟩
  | .hbm, ⟨52, _⟩ => ⟨S800000, .f32⟩
  | .hbm, ⟨53, _⟩ => ⟨S800000, .f32⟩
  | .hbm, ⟨54, _⟩ => ⟨S800000x1, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x64, .f32⟩
  | .hbm, ⟨64, _⟩ => ⟨S800000x64, .f32⟩
  | .hbm, ⟨65, _⟩ => ⟨S800000x64, .f32⟩
  | .hbm, ⟨66, _⟩ => ⟨S_, .f32⟩
  | .hbm, ⟨67, _⟩ => ⟨S50000x64, .f32⟩
  | .hbm, ⟨68, _⟩ => ⟨S800000x1, .i32⟩
  | .hbm, ⟨69, _⟩ => ⟨S50000x64, .f32⟩
  | .hbm, ⟨70, _⟩ => ⟨S1x64, .f32⟩
  | .hbm, ⟨71, _⟩ => ⟨S50000x64, .f32⟩
  | .hbm, ⟨72, _⟩ => ⟨S800000x1, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000x64, .f32⟩
  | .hbm, ⟨82, _⟩ => ⟨S800000x64, .f32⟩
  | .hbm, ⟨83, _⟩ => ⟨S800000x64, .f32⟩
  | .hbm, ⟨84, _⟩ => ⟨S_, .f32⟩
  | .hbm, ⟨85, _⟩ => ⟨S50000x64, .f32⟩
  | .hbm, ⟨86, _⟩ => ⟨S800000x1, .i32⟩
  | .hbm, ⟨87, _⟩ => ⟨S50000x64, .f32⟩
  | .hbm, ⟨88, _⟩ => ⟨S1x40, .f32⟩
  | .hbm, ⟨89, _⟩ => ⟨S50000x40, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x40, .f32⟩
  | .local _ .vmem, ⟨14, _⟩ => ⟨S64x40, .f32⟩
  | .local _ .vmem, ⟨15, _⟩ => ⟨S1x40, .f32⟩
  | .local _ .vmem, ⟨16, _⟩ => ⟨S5000x40, .f32⟩
  | .local _ .vmem, ⟨17, _⟩ => ⟨S5000x40, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_7 : Ref sig .tc := ⟨.hbm, 50, rfl⟩
abbrev main_call1_v0 : Ref sig .tc := ⟨.hbm, 51, rfl⟩
abbrev main_call1_v1 : Ref sig .tc := ⟨.hbm, 52, rfl⟩
abbrev main_v31 : Ref sig .tc := ⟨.hbm, 53, rfl⟩
abbrev main_v32 : Ref sig .tc := ⟨.hbm, 54, rfl⟩
abbrev main_c_8 : Ref sig .tc := ⟨.hbm, 55, rfl⟩
abbrev main_v33 : Ref sig .tc := ⟨.hbm, 56, rfl⟩
abbrev main_v34 : Ref sig .tc := ⟨.hbm, 57, rfl⟩
abbrev main_c_9 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_10 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_11 : Ref sig .tc := ⟨.hbm, 73, rfl⟩
abbrev main_v48 : Ref sig .tc := ⟨.hbm, 74, rfl⟩
abbrev main_v49 : Ref sig .tc := ⟨.hbm, 75, rfl⟩
abbrev main_c_12 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_13 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S40_S1x40 : S40.ShapeCasts S1x40
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x40.size a ≤ S64x40.size a
  hwx1_2 : ∀ i : grid1.Coords, EltTy.bits .f32 = 32 ∨ (Rect.block (s := S64x40) S64x40.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x40.size a ≤ S64x40.size a
  hwx1_3 : ∀ i : grid1.Coords, EltTy.bits .f32 = 32 ∨ (Rect.block (s := S64x40) S64x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x40.size a ≤ S1x40.size a
  hwx1_4 : ∀ i : grid1.Coords, EltTy.bits .f32 = 32 ∨ (Rect.block (s := S1x40) S1x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x40.size a ≤ S50000x40.size a
  hwx1_5 : ∀ i : grid1.Coords, EltTy.bits .f32 = 32 ∨ (Rect.block (s := S50000x40) S5000x40.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v44) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v45) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v46) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v46) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v59) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v60) S1x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v61) S5000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S1x64 : Shape := ⟨2, ![1, 64]⟩
abbrev S50000x40 : Shape := ⟨2, ![50000, 40]⟩
abbrev S1x40 : Shape := ⟨2, ![1, 40]⟩
abbrev S50000x1 : Shape := ⟨2, ![50000, 1]⟩

abbrev nBuf : Space → Nat
  | .hbm => 116
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x40, .f32⟩
  | .hbm, ⟨6, _⟩ => ⟨S64x40, .f32⟩
  | .hbm, ⟨7, _⟩ => ⟨S40, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000, .f32⟩
  | .hbm, ⟨38, _⟩ => ⟨S800000, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000, .f32⟩
  | .hbm, ⟨48, _⟩ => ⟨S800000, .f32⟩
  | .hbm, ⟨49, _⟩ => ⟨S800000, .i1⟩
  | .hbm, ⟨50, _⟩ => ⟨S_, .f32⟩
  | .hbm, ⟨51, _⟩ => ⟨S_, .f32⟩
  | .hbm, ⟨52, _⟩ => ⟨S800000, .f32⟩
  | .hbm, ⟨53, _⟩ => ⟨S800000, .f32⟩
  | .hbm, ⟨54, _⟩ => ⟨S800000x1, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x64, .f32⟩
  | .hbm, ⟨64, _⟩ => ⟨S800000x64, .f32⟩
  | .hbm, ⟨65, _⟩ => ⟨S800000x64, .f32⟩
  | .hbm, ⟨66, _⟩ => ⟨S_, .f32⟩
  | .hbm, ⟨67, _⟩ => ⟨S50000x64, .f32⟩
  | .hbm, ⟨68, _⟩ => ⟨S800000x1, .i32⟩
  | .hbm, ⟨69, _⟩ => ⟨S50000x64, .f32⟩
  | .hbm, ⟨70, _⟩ => ⟨S50000x64, .f32⟩
  | .hbm, ⟨71, _⟩ => ⟨S50000x64, .f32⟩
  | .hbm, ⟨72, _⟩ => ⟨S50000x64, .f32⟩
  | .hbm, ⟨73, _⟩ => ⟨S1x64, .f32⟩
  | .hbm, ⟨74, _⟩ => ⟨S50000x64, .f32⟩
  | .hbm, ⟨75, _⟩ => ⟨S50000x64, .f32⟩
  | .hbm, ⟨76, _⟩ => ⟨S_, .f32⟩
  | .hbm, ⟨77, _⟩ => ⟨S50000x64, .f32⟩
  | .hbm, ⟨78, _⟩ => ⟨S50000x64, .f32⟩
  | .hbm, ⟨79, _⟩ => ⟨S800000x1, .f32⟩
  | .hbm, ⟨80, _⟩ => ⟨S_, .i32⟩
  | .hbm, ⟨81, _⟩ => ⟨S800000, .i32⟩
  | .hbm, ⟨82, _⟩ => ⟨S800000, .i1⟩
  | .hbm, ⟨83, _⟩ => ⟨S_, .i32⟩
  | .hbm, ⟨84, _⟩ => ⟨S800000, .i32⟩
  | .hbm, ⟨85, _⟩ => ⟨S800000, .i32⟩
  | .hbm, ⟨86, _⟩ => ⟨S800000, .i32⟩
  | .hbm, ⟨87, _⟩ => ⟨S800000x1, .i32⟩
  | .hbm, ⟨88, _⟩ => ⟨S800000x64, .f32⟩
  | .hbm, ⟨89, _⟩ => ⟨S800000x64, .f32⟩
  | .hbm, ⟨90, _⟩ => ⟨S800000x64, .f32⟩
  | .hbm, ⟨91, _⟩ => ⟨S_, .f32⟩
  | .hbm, ⟨92, _⟩ => ⟨S50000x64, .f32⟩
  | .hbm, ⟨93, _⟩ => ⟨S800000x1, .i32⟩
  | .hbm, ⟨94, _⟩ => ⟨S50000x64, .f32⟩
  | .hbm, ⟨95, _⟩ => ⟨S50000x40, .f32⟩
  | .hbm, ⟨96, _⟩ => ⟨S50000x40, .f32⟩
  | .hbm, ⟨97, _⟩ => ⟨S50000x40, .f32⟩
  | .hbm, ⟨98, _⟩ => ⟨S1x40, .f32⟩
  | .hbm, ⟨99, _⟩ => ⟨S50000x40, .f32⟩
  | .hbm, ⟨100, _⟩ => ⟨S50000x40, .f32⟩
  | .hbm, ⟨101, _⟩ => ⟨S_, .f32⟩
  | .hbm, ⟨102, _⟩ => ⟨S50000, .f32⟩
  | .hbm, ⟨103, _⟩ => ⟨S_, .f32⟩
  | .hbm, ⟨104, _⟩ => ⟨S50000, .f32⟩
  | .hbm, ⟨105, _⟩ => ⟨S50000, .f32⟩
  | .hbm, ⟨106, _⟩ => ⟨S50000x1, .f32⟩
  | .hbm, ⟨107, _⟩ => ⟨S50000x40, .f32⟩
  | .hbm, ⟨108, _⟩ => ⟨S50000x40, .f32⟩
  | .hbm, ⟨109, _⟩ => ⟨S50000x40, .f32⟩
  | .hbm, ⟨110, _⟩ => ⟨S_, .f32⟩
  | .hbm, ⟨111, _⟩ => ⟨S50000, .f32⟩
  | .hbm, ⟨112, _⟩ => ⟨S50000x1, .f32⟩
  | .hbm, ⟨113, _⟩ => ⟨S50000x1, .f32⟩
  | .hbm, ⟨114, _⟩ => ⟨S50000x40, .f32⟩
  | .hbm, ⟨115, _⟩ => ⟨S50000x40, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_7 : Ref sig .tc := ⟨.hbm, 50, rfl⟩
abbrev main_call1_v0 : Ref sig .tc := ⟨.hbm, 51, rfl⟩
abbrev main_call1_v1 : Ref sig .tc := ⟨.hbm, 52, rfl⟩
abbrev main_v31 : Ref sig .tc := ⟨.hbm, 53, rfl⟩
abbrev main_v32 : Ref sig .tc := ⟨.hbm, 54, rfl⟩
abbrev main_c_8 : Ref sig .tc := ⟨.hbm, 55, rfl⟩
abbrev main_v33 : Ref sig .tc := ⟨.hbm, 56, rfl⟩
abbrev main_v34 : Ref sig .tc := ⟨.hbm, 57, rfl⟩
abbrev main_c_9 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_10 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_call2_cst : Ref sig .tc := ⟨.hbm, 76, rfl⟩
abbrev main_call2_v0 : Ref sig .tc := ⟨.hbm, 77, rfl⟩
abbrev main_v51 : Ref sig .tc := ⟨.hbm, 78, rfl⟩
abbrev main_v52 : Ref sig .tc := ⟨.hbm, 79, rfl⟩
abbrev main_c_11 : Ref sig .tc := ⟨.hbm, 80, rfl⟩
abbrev main_v53 : Ref sig .tc := ⟨.hbm, 81, rfl⟩
abbrev main_v54 : Ref sig .tc := ⟨.hbm, 82, rfl⟩
abbrev main_c_12 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_13 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_call3_cst : Ref sig .tc := ⟨.hbm, 101, rfl⟩
abbrev main_call3_v0 : Ref sig .tc := ⟨.hbm, 102, rfl⟩
abbrev main_call3_cst_0 : Ref sig .tc := ⟨.hbm, 103, rfl⟩
abbrev main_call3_v1 : Ref sig .tc := ⟨.hbm, 104, rfl⟩
abbrev main_call3_v2 : Ref sig .tc := ⟨.hbm, 105, rfl⟩
abbrev main_call3_v3 : Ref sig .tc := ⟨.hbm, 106, rfl⟩
abbrev main_call3_v4 : Ref sig .tc := ⟨.hbm, 107, rfl⟩
abbrev main_call3_v5 : Ref sig .tc := ⟨.hbm, 108, rfl⟩
abbrev main_call3_v6 : Ref sig .tc := ⟨.hbm, 109, rfl⟩
abbrev main_call3_cst_1 : Ref sig .tc := ⟨.hbm, 110, rfl⟩
abbrev main_call3_v7 : Ref sig .tc := ⟨.hbm, 111, rfl⟩
abbrev main_call3_v8 : Ref sig .tc := ⟨.hbm, 112, rfl⟩
abbrev main_call3_v9 : Ref sig .tc := ⟨.hbm, 113, rfl⟩
abbrev main_call3_v10 : Ref sig .tc := ⟨.hbm, 114, rfl⟩
abbrev main_v71 : Ref sig .tc := ⟨.hbm, 115, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S50000x64_S64x40_S50000x40_1_0_0_1_n_n_wf : DotDims.WF S50000x64 S64x40 S50000x40 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x40_S50000x40_1_0_0_1_n_n : DotDims S50000x64 S64x40 S50000x40 where
  lhsContracting := [1]
  rhsContracting := [0]
  lhsNonContracting := [0]
  rhsNonContracting := [1]
  lhsBatch := []
  rhsBatch := []
  wf := dot_S50000x64_S64x40_S50000x40_1_0_0_1_n_n_wf

class Facts : Prop extends Facts₀ where

variable [Facts]
-- ==== Proof.Rows.lean ====
/-
  One Chebyshev graph-convolution layer, node by node, over the extended reals.

  A layer of order two maps a node's feature row x and the row tx of the rescaled Laplacian applied to the features
  to the row  x · W0 + tx · W1 + b.  The first layer clips that at zero; the second takes the logarithm of the softmax
  along the row: with a = x · W0 + tx · W1 + b and top = max_q a(q) (folded from the word of minus infinity), entry q is
  (a(q) - top) - log (sum_q' exp (a(q') - top)).  Every entry of a node's output row depends on that node's two
  input rows only, which is what lets a network computed 5000 nodes at a time be compared with one computed on all
  50000 nodes at once: the whole-array functions below, over any number n of nodes, are the row functions at each row.
-/
import Idealize.ShloMosaic.PureOps.Ideal
import Idealize.ShloMosaic.Lib.ValueIdx
import Mathlib.Data.Finset.Fold

noncomputable section

open scoped BigOperators

namespace Cert.Cheb

open Idealize.ShloMosaic Idealize.ShloMosaic.ValueIdx

variable {K M : Nat}

/-- The row x · W0 + tx · W1 + b of one node, at column q. -/
def pre (xr txr : Fin K → EReal) (W0 W1 : (⟨2, ![K, M]⟩ : Shape).Idx → EReal) (b : Fin M → EReal) (q : Fin M) : EReal :=
  (∑ k : Fin K, xr k * W0 (ix2 k q)) + (∑ k : Fin K, txr k * W1 (ix2 k q)) + b q

/-- The first layer's row: the pre-activation clipped at zero. -/
def hiddenRow (xr txr : Fin K → EReal) (W0 W1 : (⟨2, ![K, M]⟩ : Shape).Idx → EReal) (b : Fin M → EReal) (q : Fin M) : EReal :=
  max (pre xr txr W0 W1 b q) (Ideal.ofBits .f32 0x00000000#32)

/-- The largest entry of a row, folded from the word of minus infinity. -/
def top (a : Fin M → EReal) : EReal :=
  (Finset.univ : Finset (Fin M)).fold max (Ideal.ofBits .f32 0xFF800000#32) a

/-- Taking the maximum with the fold's own starting value once more changes nothing. -/
theorem max_top (a : Fin M → EReal) : max (Ideal.ofBits .f32 0xFF800000#32) (top a) = top a :=
  max_eq_right ((Finset.le_fold_max _).mpr (Or.inl le_rfl))

/-- The logarithm of the softmax of a row a, at column q. -/
def logSoftmax (a : Fin M → EReal) (q : Fin M) : EReal :=
  (a q - top a) - Ideal.log (∑ q' : Fin M, Ideal.exp (a q' - top a))

/-- The second layer's row: the logarithm of the softmax of the pre-activation. -/
def outRow (xr txr : Fin K → EReal) (W0 W1 : (⟨2, ![K, M]⟩ : Shape).Idx → EReal) (b : Fin M → EReal) (q : Fin M) : EReal :=
  logSoftmax (pre xr txr W0 W1 b) q

variable {n : Nat}

/-- The first layer on n nodes. -/
def hidden (X TX : (⟨2, ![n, K]⟩ : Shape).Idx → EReal) (W0 W1 : (⟨2, ![K, M]⟩ : Shape).Idx → EReal) (b : Fin M → EReal) :
    (⟨2, ![n, M]⟩ : Shape).Idx → EReal :=
  fun i => hiddenRow (fun k => X (ix2 (i 0) k)) (fun k => TX (ix2 (i 0) k)) W0 W1 b (i 1)

theorem hidden_apply (X TX : (⟨2, ![n, K]⟩ : Shape).Idx → EReal) (W0 W1 : (⟨2, ![K, M]⟩ : Shape).Idx → EReal) (b : Fin M → EReal)
    (p : Fin n) (q : Fin M) :
    hidden X TX W0 W1 b (ix2 p q) = hiddenRow (fun k => X (ix2 p k)) (fun k => TX (ix2 p k)) W0 W1 b q := rfl

/-- The second layer on n nodes. -/
def output (X TX : (⟨2, ![n, K]⟩ : Shape).Idx → EReal) (W0 W1 : (⟨2, ![K, M]⟩ : Shape).Idx → EReal) (b : Fin M → EReal) :
    (⟨2, ![n, M]⟩ : Shape).Idx → EReal :=
  fun i => outRow (fun k => X (ix2 (i 0) k)) (fun k => TX (ix2 (i 0) k)) W0 W1 b (i 1)

theorem output_apply (X TX : (⟨2, ![n, K]⟩ : Shape).Idx → EReal) (W0 W1 : (⟨2, ![K, M]⟩ : Shape).Idx → EReal) (b : Fin M → EReal)
    (p : Fin n) (q : Fin M) :
    output X TX W0 W1 b (ix2 p q) = outRow (fun k => X (ix2 p k)) (fun k => TX (ix2 p k)) W0 W1 b q := rfl

end Cert.Cheb

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.LibRows.lean ====
/-
  Layout operations and lane sums read at an index written by coordinates.

  * A three-axis array [a, b, c] taken as the matrix [a·b, c] whose row p·b + k is the array's row (p, k), and back.
  * A matrix [a, c] given a middle unit axis and repeated b times along it: entry (p, k, q) is the matrix's (p, q).
  * A matrix [a, b] given a trailing unit axis and repeated c times along it: entry (p, k, q) is the matrix's (p, k).
  * A vector [a] given a trailing unit axis, and a column [a, 1] repeated c times along it: entry (p, q) is the vector's p.
  * Over the extended reals, a sum over the middle axis of [a, b, c] at (p, q) is Σ_k of the array at (p, k, q), and a sum
    over the last axis of [a, c] at p is Σ_q of the matrix at (p, q); both from the zero accumulator.
  Every statement is generic in the extents; the row number of the flattened matrix is passed with its equation.
-/
import Idealize.ShloMosaic.Lib.Pipeline.Value
import Idealize.ShloMosaic.Lib.ValueIdx
import Idealize.ShloMosaic.PureOps.Ideal.Laws

noncomputable section

open scoped BigOperators

namespace Cert.LibRows

open Idealize.ShloMosaic Idealize.ShloMosaic.ValueIdx

variable {α : Type}

/-- [a, b, c] as the matrix [n, c], n = a·b: the matrix's row r = p·b + k is the array's row (p, k). -/
theorem flatten_rows_apply {a b c n : Nat} (x : (⟨3, ![a, b, c]⟩ : Shape).Idx → α)
    (h : (⟨3, ![a, b, c]⟩ : Shape).ShapeCasts ⟨2, ![n, c]⟩) (p : Fin a) (k : Fin b) (q : Fin c) (r : Fin n)
    (hr : r.val = p.val * b + k.val) :
    shapeCast ⟨2, ![n, c]⟩ x h (ix2 r q) = x (ix3 p k q) :=
  shapeCast_apply x h _ _ (by
    rw [Shape.rowMajor_val_three, Shape.rowMajor_val_two]
    show (p.val * b + k.val) * c + q.val = r.val * c + q.val
    rw [hr])

/-- The matrix [n, c], n = a·b, as [a, b, c]: entry (p, k, q) is the matrix's row r = p·b + k at column q. -/
theorem unflatten_rows_apply {a b c n : Nat} (x : (⟨2, ![n, c]⟩ : Shape).Idx → α)
    (h : (⟨2, ![n, c]⟩ : Shape).ShapeCasts ⟨3, ![a, b, c]⟩) (p : Fin a) (k : Fin b) (q : Fin c) (r : Fin n)
    (hr : r.val = p.val * b + k.val) :
    shapeCast ⟨3, ![a, b, c]⟩ x h (ix3 p k q) = x (ix2 r q) :=
  shapeCast_apply x h _ _ (by
    rw [Shape.rowMajor_val_two, Shape.rowMajor_val_three]
    show r.val * c + q.val = (p.val * b + k.val) * c + q.val
    rw [hr])

/-- [a, c] given a middle unit axis. -/
theorem insert_mid_apply {a c : Nat} (x : (⟨2, ![a, c]⟩ : Shape).Idx → α)
    (h : (⟨2, ![a, c]⟩ : Shape).ShapeCasts ⟨3, ![a, 1, c]⟩) (p : Fin a) (u : Fin 1) (q : Fin c) :
    shapeCast ⟨3, ![a, 1, c]⟩ x h (ix3 p u q) = x (ix2 p q) :=
  shapeCast_apply x h _ _ (by
    have hu : u.val = 0 := by omega
    rw [Shape.rowMajor_val_two, Shape.rowMajor_val_three]
    show p.val * c + q.val = (p.val * 1 + u.val) * c + q.val
    rw [hu, Nat.mul_one, Nat.add_zero])

/-- [a, 1, c] repeated along its middle axis. -/
theorem bcast_mid_apply {a b c : Nat} (x : (⟨3, ![a, 1, c]⟩ : Shape).Idx → α)
    (h : (⟨3, ![a, 1, c]⟩ : Shape).Broadcasts ⟨3, ![a, b, c]⟩) (p : Fin a) (k : Fin b) (q : Fin c) :
    broadcastTo ⟨3, ![a, b, c]⟩ x h (ix3 p k q) = x (ix3 p (0 : Fin 1) q) :=
  broadcastTo_apply x h _ _ (fun ax => match ax with
    | ⟨0, _⟩ => by
        show p.val = if a = 1 then 0 else p.val
        have := p.isLt
        split_ifs <;> omega
    | ⟨1, _⟩ => by show 0 = if (1 : Nat) = 1 then 0 else k.val; rw [if_pos rfl]
    | ⟨2, _⟩ => by
        show q.val = if c = 1 then 0 else q.val
        have := q.isLt
        split_ifs <;> omega)

/-- [a, b] given a trailing unit axis. -/
theorem append_unit_apply {a b : Nat} (x : (⟨2, ![a, b]⟩ : Shape).Idx → α)
    (h : (⟨2, ![a, b]⟩ : Shape).ShapeCasts ⟨3, ![a, b, 1]⟩) (p : Fin a) (k : Fin b) (u : Fin 1) :
    shapeCast ⟨3, ![a, b, 1]⟩ x h (ix3 p k u) = x (ix2 p k) :=
  shapeCast_apply x h _ _ (by
    have hu : u.val = 0 := by omega
    rw [Shape.rowMajor_val_two, Shape.rowMajor_val_three]
    show p.val * b + k.val = (p.val * b + k.val) * 1 + u.val
    rw [hu, Nat.mul_one, Nat.add_zero])

/-- [a, b, 1] repeated along its last axis. -/
theorem bcast_last_apply {a b c : Nat} (x : (⟨3, ![a, b, 1]⟩ : Shape).Idx → α)
    (h : (⟨3, ![a, b, 1]⟩ : Shape).Broadcasts ⟨3, ![a, b, c]⟩) (p : Fin a) (k : Fin b) (q : Fin c) :
    broadcastTo ⟨3, ![a, b, c]⟩ x h (ix3 p k q) = x (ix3 p k (0 : Fin 1)) :=
  broadcastTo_apply x h _ _ (fun ax => match ax with
    | ⟨0, _⟩ => by
        show p.val = if a = 1 then 0 else p.val
        have := p.isLt
        split_ifs <;> omega
    | ⟨1, _⟩ => by
        show k.val = if b = 1 then 0 else k.val
        have := k.isLt
        split_ifs <;> omega
    | ⟨2, _⟩ => by show 0 = if (1 : Nat) = 1 then 0 else q.val; rw [if_pos rfl])

/-- A vector [a] as the column [a, 1]. -/
theorem col_cast_apply {a : Nat} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column [a, 1] repeated along its unit axis. -/
theorem bcast_col_apply {a c : Nat} (x : (⟨2, ![a, 1]⟩ : Shape).Idx → α)
    (h : (⟨2, ![a, 1]⟩ : Shape).Broadcasts ⟨2, ![a, c]⟩) (p : Fin a) (q : Fin c) :
    broadcastTo ⟨2, ![a, c]⟩ x h (ix2 p q) = x (ix2 p (0 : Fin 1)) :=
  broadcastTo_apply x h _ _ (fun ax => match ax with
    | ⟨0, _⟩ => by
        show p.val = if a = 1 then 0 else p.val
        have := p.isLt
        split_ifs <;> omega
    | ⟨1, _⟩ => by show 0 = if (1 : Nat) = 1 then 0 else q.val; rw [if_pos rfl])

/-- The sum over the middle axis of [a, b, c], from the zero accumulator, at (p, q). -/
theorem lane_sum_mid_apply {a b c : Nat} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (p : Fin a) (q : Fin c) :
    multiReduction .add [1] ⟨2, ![a, c]⟩ src 0x00000000#32 h hφ hacc (ix2 p q) = ∑ k : Fin b, src (ix3 p k q) := by
  refine (Ideal.multiReduction_add_single src 0x00000000#32 h hφ hacc (ix2 p q)).trans ?_
  exact Finset.sum_congr rfl fun k _ => congrArg src (funext fun ax => Fin.ext (by
    match ax with
    | ⟨0, _⟩ => rfl
    | ⟨1, _⟩ => rfl
    | ⟨2, _⟩ => rfl))

/-- The sum over the last axis of [a, c], from the zero accumulator, at p. -/
theorem lane_sum_last_apply {a c : Nat} (src : FVec Ideal ⟨2, ![a, c]⟩ .f32)
    (h : (⟨2, ![a, c]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ q : Fin c, src (ix2 p q) := by
  refine (Ideal.multiReduction_add_single src 0x00000000#32 h hφ hacc (ix1 p)).trans ?_
  exact Finset.sum_congr rfl fun q _ => congrArg src (funext fun ax => Fin.ext (by
    match ax with
    | ⟨0, _⟩ => rfl
    | ⟨1, _⟩ => rfl))

end Cert.LibRows

end
-- ==== Proof.LibRowMax.lean ====
/-
  The largest entry of each row of a matrix, read at a row.

  A kernel takes the maximum over the last axis of an [a, c] matrix by a lane reduction from an accumulator word; the
  host takes it by a reduce whose body is the maximum, from an initial value held in a rank-0 array. Over the extended
  reals both are, at row p, the fold of `max` from the starting value over the c entries (p, q) of that row, in any
  order. Generic in a and c; the host form takes the witness that names the inserted coordinate as an argument.
-/
import Idealize.ShloMosaic.PureOps.Ideal.Laws
import Idealize.ShloMosaic.Lib.ValueIdx

noncomputable section

namespace Cert.LibRowMax

open Idealize.ShloMosaic Idealize.ShloMosaic.ValueIdx

/-- The index of row `p` with the column `q` put back is `(p, q)`. -/
theorem lift_last {a c : Nat} (h : (⟨2, ![a, c]⟩ : Shape).Reduces [1] ⟨1, ![a]⟩) (p : Fin a) (q : Fin c) :
    h.lift (ix1 p) q = ix2 p q :=
  funext fun ax => Fin.ext (by
    match ax with
    | ⟨0, _⟩ => rfl
    | ⟨1, _⟩ => rfl)

/-- A lane maximum over the last axis of [a, c], from the accumulator word `acc`, at row `p`. -/
theorem lane_max_last_apply {a c : Nat} (src : FVec Ideal ⟨2, ![a, c]⟩ .f32) (acc : BitVec 32)
    (h : (⟨2, ![a, c]⟩ : Shape).Reduces [1] ⟨1, ![a]⟩) (hφ : FKind.Formats .f32)
    (hacc : acc = FKind.maximumf.neutral .f32 hφ) (p : Fin a) :
    multiReduction .maximumf [1] ⟨1, ![a]⟩ src acc h hφ hacc (ix1 p)
      = (Finset.univ : Finset (Fin c)).fold max (Ideal.ofBits .f32 acc) (fun q => src (ix2 p q)) := by
  refine (Ideal.multiReduction_maximumf_single src acc h hφ hacc (ix1 p)).trans ?_
  exact Finset.fold_congr fun q _ => congrArg src (lift_last h p q)

/-- The host's reduce with the maximum as its body over the last axis of [a, c], from the initial value `init`, at
    row `p`. -/
theorem host_max_last_apply {a c : Nat} {u : Shape} (x : FVec Ideal ⟨2, ![a, c]⟩ .f32) (init : FVec Ideal u .f32)
    (h' : (⟨2, ![a, c]⟩ : Shape).ReducesTo [1] ⟨1, ![a]⟩) (h : (⟨2, ![a, c]⟩ : Shape).Reduces [1] ⟨1, ![a]⟩)
    (hu : 0 < u.numel) (p : Fin a) :
    Host.reduce (FloatOps.maximumf (F := Ideal) (φ := .f32)) x init h' hu (ix1 p)
      = (Finset.univ : Finset (Fin c)).fold max (init (Shape.Idx.first hu)) (fun q => x (ix2 p q)) := by
  refine (Host.reduce_eq_fold_single (FloatOps.maximumf (F := Ideal) (φ := .f32)) x init h' h hu (ix1 p)).trans ?_
  exact Finset.fold_congr fun q _ => congrArg x (lift_last h p q)

end Cert.LibRowMax

end
-- ==== Proof.Body.lean ====
/-
  What one grid step of each kernel stores, entry by entry.

  The first kernel's stored block is, at row r and column q of the 5000 nodes of its step, the first layer's row
  function of the step's rows of the two feature blocks; the second kernel's stored block is the second layer's row
  function. The matrix products are taken into zero accumulators, so each is the plain sum over the 64 input
  features; the rounding of the operands to a shorter format on the way into the products is the identity over the
  extended reals; the bias row is spread over the 5000 rows; the row maximum and the row sum of the softmax are lane
  reductions kept as a column and spread back over the 40 columns.
-/
import proofs.«111802_j29386166239457_1_alg».proof.Proof.Gen.KernelIdeal.Skeleton
import proofs.«111802_j29386166239457_1_alg».proof.Proof.Rows
import proofs.«111802_j29386166239457_1_alg».proof.Proof.LibMatmulPlain
import proofs.«111802_j29386166239457_1_alg».proof.Proof.LibRows
import proofs.«111802_j29386166239457_1_alg».proof.Proof.LibRowMax
import Idealize.ShloMosaic.Lib.Pipeline.Value
import Idealize.ShloMosaic.Lib.ValueIdx
import Idealize.ShloMosaic.PureOps.Ideal.Laws

noncomputable section

open scoped BigOperators

namespace Cert.KernelIdeal.Body

open Idealize.ShloMosaic Idealize.ShloMosaic.ValueIdx Cert.KernelIdeal Cert.KernelIdeal.Gen

/-- A row [1, c] spread over n rows reads, at (p, q), the row's entry q. -/
theorem spread_row_apply {α : Type} {n c : Nat} (x : (⟨2, ![1, c]⟩ : Shape).Idx → α)
    (h : (⟨2, ![1, c]⟩ : Shape).Broadcasts ⟨2, ![n, c]⟩) (p : Fin n) (q : Fin c) :
    broadcastTo ⟨2, ![n, c]⟩ x h (ix2 p q) = x (ix2 (0 : Fin 1) q) :=
  broadcastTo_apply x h _ _ (fun ax => match ax with
    | ⟨0, _⟩ => by show 0 = if (1 : Nat) = 1 then 0 else p.val; rw [if_pos rfl]
    | ⟨1, _⟩ => by
        show q.val = if c = 1 then 0 else q.val
        have := q.isLt
        split_ifs <;> omega)

/-- THE FIRST KERNEL'S STORED BLOCK at (r, q): the first layer's row function of row r of its two feature blocks. -/
theorem pay0_apply (x0 x1 : Vec Ideal S5000x64 .f32) (x2 x3 : Vec Ideal S64x64 .f32) (x4 : Vec Ideal S1x64 .f32)
    (r : Fin 5000) (q : Fin 64) :
    k0_pay1 x0 x1 x2 x3 x4 (ix2 r q)
      = Cheb.hiddenRow (fun k => x0 (ix2 r k)) (fun k => x1 (ix2 r k)) x2 x3 (fun q' => x4 (ix2 (0 : Fin 1) q')) q := by
  unfold k0_pay1 Cheb.hiddenRow Cheb.pre
  rw [maximumf_apply, addf_apply, addf_apply]
  simp only [LibMatmulPlain.matmul_plain_zero_apply dot_S5000x64_S64x64_S5000x64_1_0_0_1_n_n rfl]
  rw [spread_row_apply, shapeCast_self, shapeCast_self]
  rfl

/-- The second kernel's pre-activation block. -/
def pre1 (x0 x1 : Vec Ideal S5000x64 .f32) (x2 x3 : Vec Ideal S64x40 .f32) (x4 : Vec Ideal S1x40 .f32) : FVec Ideal S5000x40 .f32 :=
  addf
    (addf
      (matmul dot_S5000x64_S64x40_S5000x40_1_0_0_1_n_n none
        (truncf .bf16 (shapeCast S5000x64 x0 shapeCasts_S5000x64_S5000x64) bitsLt_bf16_f32) (truncf .bf16 x2 bitsLt_bf16_f32)
        (constant S5000x40 .f32 0x00000000#32))
      (matmul dot_S5000x64_S64x40_S5000x40_1_0_0_1_n_n none
        (truncf .bf16 (shapeCast S5000x64 x1 shapeCasts_S5000x64_S5000x64) bitsLt_bf16_f32) (truncf .bf16 x3 bitsLt_bf16_f32)
        (constant S5000x40 .f32 0x00000000#32)))
    (broadcastTo S5000x40 (shapeCast S1x40 x4 shapeCasts_S1x40_S1x40) broadcasts_S1x40_S5000x40)

theorem pre1_apply (x0 x1 : Vec Ideal S5000x64 .f32) (x2 x3 : Vec Ideal S64x40 .f32) (x4 : Vec Ideal S1x40 .f32)
    (r : Fin 5000) (q : Fin 40) :
    pre1 x0 x1 x2 x3 x4 (ix2 r q)
      = Cheb.pre (fun k => x0 (ix2 r k)) (fun k => x1 (ix2 r k)) x2 x3 (fun q' => x4 (ix2 (0 : Fin 1) q')) q := by
  unfold pre1 Cheb.pre
  rw [addf_apply, addf_apply]
  simp only [LibMatmulPlain.matmul_plain_zero_apply dot_S5000x64_S64x40_S5000x40_1_0_0_1_n_n rfl]
  rw [spread_row_apply, shapeCast_self, shapeCast_self, shapeCast_self]
  rfl

/-- The row maximum of a block, kept as a column and spread back over the 40 columns. -/
def blockTop (y : FVec Ideal S5000x40 .f32) : FVec Ideal S5000x40 .f32 :=
  broadcastTo S5000x40
    (shapeCast S5000x1 (multiReduction .maximumf [1] S5000 y 0xFF800000#32 reduces_S5000x40_S5000 (.inl rfl) rfl)
      shapeCasts_S5000_S5000x1)
    broadcasts_S5000x1_S5000x40

theorem blockTop_apply (y : FVec Ideal S5000x40 .f32) (r : Fin 5000) (q : Fin 40) :
    blockTop y (ix2 r q) = Cheb.top (fun q' => y (ix2 r q')) := by
  unfold blockTop
  rw [LibRows.bcast_col_apply, LibRows.col_cast_apply]
  exact LibRowMax.lane_max_last_apply y _ reduces_S5000x40_S5000 (.inl rfl) rfl r

/-- The logarithm of the softmax along each row of a block, as the kernel takes it. -/
def blockLogSoftmax (y : FVec Ideal S5000x40 .f32) : FVec Ideal S5000x40 .f32 :=
  subf (subf y (blockTop y))
    (broadcastTo S5000x40
      (log (shapeCast S5000x1
        (multiReduction .add [1] S5000 (exp (subf y (blockTop y))) 0x00000000#32 reduces_S5000x40_S5000 (.inl rfl) rfl)
        shapeCasts_S5000_S5000x1))
      broadcasts_S5000x1_S5000x40)

/-- The second kernel's stored block is the block log-softmax of its pre-activation block. -/
theorem pay1_eq (x0 x1 : Vec Ideal S5000x64 .f32) (x2 x3 : Vec Ideal S64x40 .f32) (x4 : Vec Ideal S1x40 .f32) :
    k1_pay1 x0 x1 x2 x3 x4 = blockLogSoftmax (pre1 x0 x1 x2 x3 x4) := rfl

theorem log_apply {s : Shape} (v : FVec Ideal s .f32) (i : s.Idx) : log v i = Ideal.log (v i) := rfl
theorem exp_apply {s : Shape} (v : FVec Ideal s .f32) (i : s.Idx) : exp v i = Ideal.exp (v i) := rfl

theorem blockLogSoftmax_at (y : FVec Ideal S5000x40 .f32) (r : Fin 5000) (q : Fin 40) :
    blockLogSoftmax y (ix2 r q) = (y (ix2 r q) - blockTop y (ix2 r q))
      - (broadcastTo S5000x40
          (log (shapeCast S5000x1
            (multiReduction .add [1] S5000 (exp (subf y (blockTop y))) 0x00000000#32 reduces_S5000x40_S5000 (.inl rfl) rfl)
            shapeCasts_S5000_S5000x1))
          broadcasts_S5000x1_S5000x40) (ix2 r q) := rfl

theorem blockLogSoftmax_apply (y : FVec Ideal S5000x40 .f32) (r : Fin 5000) (q : Fin 40) :
    blockLogSoftmax y (ix2 r q) = Cheb.logSoftmax (fun q' => y (ix2 r q')) q := by
  rw [blockLogSoftmax_at, blockTop_apply, LibRows.bcast_col_apply, log_apply, LibRows.col_cast_apply,
    LibRows.lane_sum_last_apply _ reduces_S5000x40_S5000 (.inl rfl) rfl r]
  unfold Cheb.logSoftmax
  refine congrArg (fun s => _ - Ideal.log s) (Finset.sum_congr rfl fun q' _ => ?_)
  rw [exp_apply, subf_apply, blockTop_apply]

/-- THE SECOND KERNEL'S STORED BLOCK at (r, q): the second layer's row function of row r of its two feature blocks. -/
theorem pay1_apply (x0 x1 : Vec Ideal S5000x64 .f32) (x2 x3 : Vec Ideal S64x40 .f32) (x4 : Vec Ideal S1x40 .f32)
    (r : Fin 5000) (q : Fin 40) :
    k1_pay1 x0 x1 x2 x3 x4 (ix2 r q)
      = Cheb.outRow (fun k => x0 (ix2 r k)) (fun k => x1 (ix2 r k)) x2 x3 (fun q' => x4 (ix2 (0 : Fin 1) q')) q := by
  rw [pay1_eq, blockLogSoftmax_apply]
  unfold Cheb.outRow
  exact congrArg (fun a => Cheb.logSoftmax a q) (funext fun q' => pre1_apply x0 x1 x2 x3 x4 r q')

end Cert.KernelIdeal.Body

end
-- ==== Proof.Blocks.lean ====
/-
  From grid steps to whole arrays: what each kernel launch leaves in its output array.

  A launch runs ten steps; step t reads rows 5000 t … 5000 t + 4999 of its two feature arrays, the two whole weight
  matrices and the bias row, and writes back rows 5000 t … 5000 t + 4999 of its output array. By the entry-by-entry reading
  of the stored block (Proof/Body.lean) and because a node's output row depends on that node's input rows only, what step
  t writes back is block t of ONE whole-array function of the arrays the launch finds: the first layer for the first
  launch, the second layer for the second. The ten blocks tile the 50000 rows, so the output array ends at that function.
  Everything is stated at any contents `V` of the buffers at the launch's entry.
-/
import proofs.«111802_j29386166239457_1_alg».proof.Proof.Gen.KernelIdeal.Frame
import proofs.«111802_j29386166239457_1_alg».proof.Proof.Body
import Idealize.ShloMosaic.Lib.Pipeline.Value

set_option maxRecDepth 16384

noncomputable section

open scoped BigOperators

namespace Cert.KernelIdeal.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem zeros2 : (![0, 0] : Fin 2 → Nat) = fun _ => 0 := funext fun a => by fin_cases a <;> rfl

/-! ## One step of the first launch, over plain blocks -/

/-- If the two feature blocks are rows base … base + 4999 of the arrays X and TX (read through an index map e that shifts
    the row by base and keeps the column), the stored block at j is the first layer of X and TX at e j. -/
theorem step0 (X TX : FVec Ideal S50000x64 .f32) (W0 W1 : FVec Ideal S64x64 .f32) (B : FVec Ideal S1x64 .f32)
    (x0 x1 : Vec Ideal S5000x64 .f32) (x2 x3 : Vec Ideal S64x64 .f32) (x4 : Vec Ideal S1x64 .f32)
    (base : Nat) (e : S5000x64.Idx → S50000x64.Idx)
    (he0 : ∀ j, (e j 0).val = base + (j 0).val) (he1 : ∀ j, (e j 1).val = (j 1).val)
    (h0 : ∀ j, x0 j = X (e j)) (h1 : ∀ j, x1 j = TX (e j)) (h2 : ∀ j, x2 j = W0 j) (h3 : ∀ j, x3 j = W1 j)
    (h4 : ∀ j, x4 j = B j) (j : S5000x64.Idx) :
    k0_pay1 x0 x1 x2 x3 x4 j = Cheb.hidden X TX W0 W1 (fun q => B (ix2 (0 : Fin 1) q)) (e j) := by
  obtain rfl : x2 = W0 := funext h2
  obtain rfl : x3 = W1 := funext h3
  obtain rfl : x4 = B := funext h4
  obtain ⟨r, q, rfl⟩ : ∃ (r : Fin 5000) (q : Fin 64), j = ix2 r q := ⟨j 0, j 1, eq_ix2 j⟩
  have hrow : ∀ k : Fin 64, e (ix2 r k) = ix2 (e (ix2 r q) 0) k := fun k => funext fun a => Fin.ext (by
    match a with
    | ⟨0, _⟩ => exact (he0 (ix2 r k)).trans (he0 (ix2 r q)).symm
    | ⟨1, _⟩ => exact he1 (ix2 r k))
  have hcol : e (ix2 r q) 1 = q := Fin.ext (he1 (ix2 r q))
  rw [Body.pay0_apply]
  show _ = Cheb.hiddenRow (fun k => X (ix2 (e (ix2 r q) 0) k)) (fun k => TX (ix2 (e (ix2 r q) 0) k)) x2 x3
    (fun q' => x4 (ix2 (0 : Fin 1) q')) (e (ix2 r q) 1)
  rw [hcol]
  refine congrArg₂ (fun a b => Cheb.hiddenRow a b x2 x3 (fun q' => x4 (ix2 (0 : Fin 1) q')) q) ?_ ?_
  · exact funext fun k => (h0 (ix2 r k)).trans (congrArg X (hrow k))
  · exact funext fun k => (h1 (ix2 r k)).trans (congrArg TX (hrow k))

/-! ## The first launch: its output array after the ten steps -/

section Region0

variable (V : (c : Dev nD) → (b : Ref sig .tc) → Buf (Elt Ideal) ((c : Thread nD τ).loc b))

/-- The printed index maps over the grid: the feature and output blocks of step t start at block row t, column block 0; the
    weight and bias blocks are the whole arrays. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every block row of the output is some step's. -/
theorem onto0 : ∀ q0 : Fin 10, ∃ t : Fin cfg0.N, win0_5.index t = ![q0.val, 0] :=
  (by decide +kernel : ∀ q0 : Fin 10, ∃ t : Fin grid0.N, win0_5.index t = ![q0.val, 0])

/-- The first layer of the arrays the first launch finds. -/
def layer0 (c : Dev nD) : FVec Ideal S50000x64 .f32 :=
  Cheb.hidden (V c main_arg0) (V c main_v44) (V c main_arg2) (V c main_arg3) (fun q => V c main_v45 (ix2 (0 : Fin 1) q))

/-- WHAT STEP t WRITES BACK is block t of the first layer of the arrays the launch finds. -/
theorem flushed0 (c : Dev nD) (t : Fin cfg0.N) :
    (dat0 V c).flushed 5 t = ((cfg0.win 5).blk t).view.read (Elt Ideal) (layer0 V c) := by
  show (cfg0.win 5).cut (grid0.coords t) ((dat0 V c).after 5 t) = _
  rw [after0_5]
  unfold out0_5
  rw [View.canon_unit_zero zeros2]
  simp only [View.ld_unit_zero (S := S5000x64) zeros2, View.ld_unit_zero (S := S64x64) zeros2,
    View.ld_unit_zero (S := S1x64) zeros2]
  obtain ⟨a0, a1, b0, b1, c0, c1, d0, d1, e0, e1, f0, f1⟩ := idx0 t
  funext j
  refine step0 (V c main_arg0) (V c main_v44) (V c main_arg2) (V c main_arg3) (V c main_v45)
    (iblk0 V c 0 t) (iblk0 V c 1 t) (iblk0 V c 2 t) (iblk0 V c 3 t) (iblk0 V c 4 t)
    (t.val * 5000) (((cfg0.win 5).blk t).view.emb) ?_ ?_ ?_ ?_ ?_ ?_ ?_ j
  · intro y
    show win0_5.index t (0 : Fin 2) * 5000 + 1 * (y 0).val = t.val * 5000 + (y 0).val
    omega
  · intro y
    show win0_5.index t (1 : Fin 2) * 64 + 1 * (y 1).val = (y 1).val
    omega
  · intro y
    show V c main_arg0 (((cfg0.win 0).blk t).view.emb y) = V c main_arg0 (((cfg0.win 5).blk t).view.emb y)
    refine congrArg (V c main_arg0) (funext fun a => Fin.ext ?_)
    match a with
    | ⟨0, _⟩ => show win0_0.index t (0 : Fin 2) * 5000 + 1 * (y 0).val = win0_5.index t (0 : Fin 2) * 5000 + 1 * (y 0).val; omega
    | ⟨1, _⟩ => show win0_0.index t (1 : Fin 2) * 64 + 1 * (y 1).val = win0_5.index t (1 : Fin 2) * 64 + 1 * (y 1).val; omega
  · intro y
    show V c main_v44 (((cfg0.win 1).blk t).view.emb y) = V c main_v44 (((cfg0.win 5).blk t).view.emb y)
    refine congrArg (V c main_v44) (funext fun a => Fin.ext ?_)
    match a with
    | ⟨0, _⟩ => show win0_1.index t (0 : Fin 2) * 5000 + 1 * (y 0).val = win0_5.index t (0 : Fin 2) * 5000 + 1 * (y 0).val; omega
    | ⟨1, _⟩ => show win0_1.index t (1 : Fin 2) * 64 + 1 * (y 1).val = win0_5.index t (1 : Fin 2) * 64 + 1 * (y 1).val; omega
  · intro y
    show V c main_arg2 (((cfg0.win 2).blk t).view.emb y) = V c main_arg2 y
    refine congrArg (V c main_arg2) (funext fun a => Fin.ext ?_)
    match a with
    | ⟨0, _⟩ => show win0_2.index t (0 : Fin 2) * 64 + 1 * (y 0).val = (y 0).val; omega
    | ⟨1, _⟩ => show win0_2.index t (1 : Fin 2) * 64 + 1 * (y 1).val = (y 1).val; omega
  · intro y
    show V c main_arg3 (((cfg0.win 3).blk t).view.emb y) = V c main_arg3 y
    refine congrArg (V c main_arg3) (funext fun a => Fin.ext ?_)
    match a with
    | ⟨0, _⟩ => show win0_3.index t (0 : Fin 2) * 64 + 1 * (y 0).val = (y 0).val; omega
    | ⟨1, _⟩ => show win0_3.index t (1 : Fin 2) * 64 + 1 * (y 1).val = (y 1).val; omega
  · intro y
    show V c main_v45 (((cfg0.win 4).blk t).view.emb y) = V c main_v45 y
    refine congrArg (V c main_v45) (funext fun a => Fin.ext ?_)
    match a with
    | ⟨0, _⟩ => show win0_4.index t (0 : Fin 2) * 1 + 1 * (y 0).val = (y 0).val; omega
    | ⟨1, _⟩ => show win0_4.index t (1 : Fin 2) * 64 + 1 * (y 1).val = (y 1).val; omega

/-- An index of the output array is in step t's block iff each coordinate is in the block's range on its axis. -/
theorem mem_blk0 (t : Fin cfg0.N) (i : S50000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v46).slice (win0_5.rect t)).set ↔ _
  rw [View.set_slice_whole, Rect.mem_set_unit]
  exact Iff.rfl

/-- The ten blocks tile the 50000 rows: row r is in the block of step r / 5000. -/
theorem cover0 (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  obtain ⟨t, ht⟩ := onto0 ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- THE FIRST LAUNCH'S OUTPUT ARRAY after its ten steps is the first layer of the arrays the launch finds. -/
theorem final0 (c : Dev nD) : (dat0 V c).arrAt 5 cfg0.N = layer0 V c :=
  (dat0 V c).arrAt_eq_of_cover 5 (layer0 V c) (fun t _ => flushed0 V c t) cover0

end Region0

/-! ## One step of the second launch, over plain blocks -/

/-- If the two feature blocks are rows base … base + 4999 of the arrays X and TX, and e shifts the row of an output index
    by base and keeps the column, the stored block at j is the second layer of X and TX at e j. -/
theorem step1 (X TX : FVec Ideal S50000x64 .f32) (W0 W1 : FVec Ideal S64x40 .f32) (B : FVec Ideal S1x40 .f32)
    (x0 x1 : Vec Ideal S5000x64 .f32) (x2 x3 : Vec Ideal S64x40 .f32) (x4 : Vec Ideal S1x40 .f32)
    (base : Nat) (e : S5000x40.Idx → S50000x40.Idx)
    (he0 : ∀ j, (e j 0).val = base + (j 0).val) (he1 : ∀ j, (e j 1).val = (j 1).val)
    (h0 : ∀ (r : Fin 5000) (k : Fin 64) (p : Fin 50000), p.val = base + r.val → x0 (ix2 r k) = X (ix2 p k))
    (h1 : ∀ (r : Fin 5000) (k : Fin 64) (p : Fin 50000), p.val = base + r.val → x1 (ix2 r k) = TX (ix2 p k))
    (h2 : ∀ j, x2 j = W0 j) (h3 : ∀ j, x3 j = W1 j) (h4 : ∀ j, x4 j = B j) (j : S5000x40.Idx) :
    k1_pay1 x0 x1 x2 x3 x4 j = Cheb.output X TX W0 W1 (fun q => B (ix2 (0 : Fin 1) q)) (e j) := by
  obtain rfl : x2 = W0 := funext h2
  obtain rfl : x3 = W1 := funext h3
  obtain rfl : x4 = B := funext h4
  obtain ⟨r, q, rfl⟩ : ∃ (r : Fin 5000) (q : Fin 40), j = ix2 r q := ⟨j 0, j 1, eq_ix2 j⟩
  have hcol : e (ix2 r q) 1 = q := Fin.ext (he1 (ix2 r q))
  rw [Body.pay1_apply]
  show _ = Cheb.outRow (fun k => X (ix2 (e (ix2 r q) 0) k)) (fun k => TX (ix2 (e (ix2 r q) 0) k)) x2 x3
    (fun q' => x4 (ix2 (0 : Fin 1) q')) (e (ix2 r q) 1)
  rw [hcol]
  refine congrArg₂ (fun a b => Cheb.outRow a b x2 x3 (fun q' => x4 (ix2 (0 : Fin 1) q')) q) ?_ ?_
  · exact funext fun k => h0 r k (e (ix2 r q) 0) (he0 (ix2 r q))
  · exact funext fun k => h1 r k (e (ix2 r q) 0) (he0 (ix2 r q))

/-! ## The second launch: its output array after the ten steps -/

section Region1

variable (V : (c : Dev nD) → (b : Ref sig .tc) → Buf (Elt Ideal) ((c : Thread nD τ).loc b))

/-- The printed index maps over the grid, as for the first launch. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Every block row of the output is some step's. -/
theorem onto1 : ∀ q0 : Fin 10, ∃ t : Fin cfg1.N, win1_5.index t = ![q0.val, 0] :=
  (by decide +kernel : ∀ q0 : Fin 10, ∃ t : Fin grid1.N, win1_5.index t = ![q0.val, 0])

/-- The second layer of the arrays the second launch finds. -/
def layer1 (c : Dev nD) : FVec Ideal S50000x40 .f32 :=
  Cheb.output (V c main_v46) (V c main_v59) (V c main_arg5) (V c main_arg6) (fun q => V c main_v60 (ix2 (0 : Fin 1) q))

/-- WHAT STEP t WRITES BACK is block t of the second layer of the arrays the launch finds. -/
theorem flushed1 (c : Dev nD) (t : Fin cfg1.N) :
    (dat1 V c).flushed 5 t = ((cfg1.win 5).blk t).view.read (Elt Ideal) (layer1 V c) := by
  show (cfg1.win 5).cut (grid1.coords t) ((dat1 V c).after 5 t) = _
  rw [after1_5]
  unfold out1_5
  rw [View.canon_unit_zero zeros2]
  simp only [View.ld_unit_zero (S := S5000x64) zeros2, View.ld_unit_zero (S := S64x40) zeros2,
    View.ld_unit_zero (S := S1x40) zeros2]
  obtain ⟨a0, a1, b0, b1, c0, c1, d0, d1, e0, e1, f0, f1⟩ := idx1 t
  funext j
  refine step1 (V c main_v46) (V c main_v59) (V c main_arg5) (V c main_arg6) (V c main_v60)
    (iblk1 V c 0 t) (iblk1 V c 1 t) (iblk1 V c 2 t) (iblk1 V c 3 t) (iblk1 V c 4 t)
    (t.val * 5000) (((cfg1.win 5).blk t).view.emb) ?_ ?_ ?_ ?_ ?_ ?_ ?_ j
  · intro y
    show win1_5.index t (0 : Fin 2) * 5000 + 1 * (y 0).val = t.val * 5000 + (y 0).val
    omega
  · intro y
    show win1_5.index t (1 : Fin 2) * 40 + 1 * (y 1).val = (y 1).val
    omega
  · intro r k p hp
    show V c main_v46 (((cfg1.win 0).blk t).view.emb (ix2 r k)) = V c main_v46 (ix2 p k)
    refine congrArg (V c main_v46) (funext fun a => Fin.ext ?_)
    match a with
    | ⟨0, _⟩ => show win1_0.index t (0 : Fin 2) * 5000 + 1 * r.val = p.val; omega
    | ⟨1, _⟩ => show win1_0.index t (1 : Fin 2) * 64 + 1 * k.val = k.val; omega
  · intro r k p hp
    show V c main_v59 (((cfg1.win 1).blk t).view.emb (ix2 r k)) = V c main_v59 (ix2 p k)
    refine congrArg (V c main_v59) (funext fun a => Fin.ext ?_)
    match a with
    | ⟨0, _⟩ => show win1_1.index t (0 : Fin 2) * 5000 + 1 * r.val = p.val; omega
    | ⟨1, _⟩ => show win1_1.index t (1 : Fin 2) * 64 + 1 * k.val = k.val; omega
  · intro y
    show V c main_arg5 (((cfg1.win 2).blk t).view.emb y) = V c main_arg5 y
    refine congrArg (V c main_arg5) (funext fun a => Fin.ext ?_)
    match a with
    | ⟨0, _⟩ => show win1_2.index t (0 : Fin 2) * 64 + 1 * (y 0).val = (y 0).val; omega
    | ⟨1, _⟩ => show win1_2.index t (1 : Fin 2) * 40 + 1 * (y 1).val = (y 1).val; omega
  · intro y
    show V c main_arg6 (((cfg1.win 3).blk t).view.emb y) = V c main_arg6 y
    refine congrArg (V c main_arg6) (funext fun a => Fin.ext ?_)
    match a with
    | ⟨0, _⟩ => show win1_3.index t (0 : Fin 2) * 64 + 1 * (y 0).val = (y 0).val; omega
    | ⟨1, _⟩ => show win1_3.index t (1 : Fin 2) * 40 + 1 * (y 1).val = (y 1).val; omega
  · intro y
    show V c main_v60 (((cfg1.win 4).blk t).view.emb y) = V c main_v60 y
    refine congrArg (V c main_v60) (funext fun a => Fin.ext ?_)
    match a with
    | ⟨0, _⟩ => show win1_4.index t (0 : Fin 2) * 1 + 1 * (y 0).val = (y 0).val; omega
    | ⟨1, _⟩ => show win1_4.index t (1 : Fin 2) * 40 + 1 * (y 1).val = (y 1).val; omega

/-- An index of the output array is in step t's block iff each coordinate is in the block's range on its axis. -/
theorem mem_blk1 (t : Fin cfg1.N) (i : S50000x40.Idx) :
    i ∈ ((cfg1.win 5).blk t).view.set ↔ ∀ a : Fin 2, win1_5.index t a * S5000x40.size a ≤ (i a).val
      ∧ (i a).val < win1_5.index t a * S5000x40.size a + S5000x40.size a := by
  show i ∈ ((View.whole main_v61).slice (win1_5.rect t)).set ↔ _
  rw [View.set_slice_whole, Rect.mem_set_unit]
  exact Iff.rfl

/-- The ten blocks tile the 50000 rows. -/
theorem cover1 (i : S50000x40.Idx) :
    ∃ t : Fin cfg1.N, (cfg1.win 5).flush t = true ∧ i ∈ ((cfg1.win 5).blk t).view.set := by
  have hi0 : (i 0).val < 50000 := (i 0).isLt
  have hi1 : (i 1).val < 40 := (i 1).isLt
  obtain ⟨t, ht⟩ := onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 40 ≤ (i 1).val ∧ (i 1).val < win1_5.index t (1 : Fin 2) * 40 + 40; omega

/-- THE SECOND LAUNCH'S OUTPUT ARRAY after its ten steps is the second layer of the arrays the launch finds. -/
theorem final1 (c : Dev nD) : (dat1 V c).arrAt 5 cfg1.N = layer1 V c :=
  (dat1 V c).arrAt_eq_of_cover 5 (layer1 V c) (fun t _ => flushed1 V c t) cover1

end Region1

end Cert.KernelIdeal.Blocks

end
-- ==== Proof.Edge.lean ====
/-
  The edge stage of a Chebyshev graph convolution, as functions of the edge list.

  The edge list is a [2, 800000] integer array: row 0 holds each edge's target node, row 1 its source node. From it:
  * `degree`: the number of edges into each of the 50000 nodes (ones scatter-added at the targets);
  * `dinv`: deg^(-1/2) where the degree is positive (the reciprocal square root of max(deg, 1)), and 0 elsewhere;
  * `weight`: per edge, -dinv[target] · dinv[source], and 0 on a self-loop: the off-diagonal entries of the
    rescaled Laplacian  L~ = 2L/lambda_max - I  with lambda_max = 2;
  * `lap ei h`: L~ applied to a [50000, 64] feature array h: each edge's weight times the source node's feature row,
    scatter-added into the target node's row of a zero array.
  An index read by a gather is first normalised as jnp does (`wrap`: a negative index counts from the end).
  Both programs compute this stage with the same host operations, once on the input features and once on the hidden
  features; nothing below opens these definitions: they are only compared with what each program's host lines
  compute, and `lap` applied to equal feature arrays is equal.
-/
import proofs.«111802_j29386166239457_1_alg».proof.Proof.Gen.ReferenceIdeal

noncomputable section

namespace Cert.Edge

open Idealize.ShloMosaic Cert.ReferenceIdeal Cert.ReferenceIdeal.Gen

variable {F : FTy → Type} [FloatOps F]

/-- The edges' target nodes: row 0 of the edge list. -/
def rowOf (ei : (⟨S2x800000, .i32⟩ : BufTy).Contents (Elt F)) : (⟨S800000, .i32⟩ : BufTy).Contents (Elt F) :=
  shapeCast _ (extractStridedSlice S1x800000 ![0, 0] ei slices_S2x800000_S1x800000_0_0) shapeCasts_S1x800000_S800000

/-- The edges' source nodes: row 1 of the edge list. -/
def colOf (ei : (⟨S2x800000, .i32⟩ : BufTy).Contents (Elt F)) : (⟨S800000, .i32⟩ : BufTy).Contents (Elt F) :=
  shapeCast _ (extractStridedSlice S1x800000 ![1, 0] ei slices_S2x800000_S1x800000_1_0) shapeCasts_S1x800000_S800000

/-- jnp's normalisation of an index into an axis of extent 50000: a negative index counts from the end. -/
def wrap (v : (⟨S800000, .i32⟩ : BufTy).Contents (Elt F)) : (⟨S800000, .i32⟩ : BufTy).Contents (Elt F) :=
  select (cmpi .slt v (broadcastInDim S800000 ![] bcast_S_S800000 (constantI S_ 32 0#32)))
    (addi v (broadcastInDim S800000 ![] bcast_S_S800000 (constantI S_ 32 50000#32))) v

/-- The number of edges into each node. -/
def degree (ei : (⟨S2x800000, .i32⟩ : BufTy).Contents (Elt F)) : (⟨S50000, .f32⟩ : BufTy).Contents (Elt F) :=
  Host.scatterAdd scatter_S50000_S800000x1_S800000_n_0_0_1
    (broadcastInDim S50000 ![] bcast_S_S50000 (constant S_ .f32 0x00000000#32))
    (broadcastInDim S800000x1 ![0] bcast_S800000_S800000x1_0 (rowOf (F := F) ei))
    (broadcastInDim S800000 ![] bcast_S_S800000 (constant S_ .f32 0x3F800000#32))

/-- deg^(-1/2) where the degree is positive, 0 elsewhere. -/
def dinv (ei : (⟨S2x800000, .i32⟩ : BufTy).Contents (Elt F)) : (⟨S50000, .f32⟩ : BufTy).Contents (Elt F) :=
  select (cmpf .ogt (degree (F := F) ei) (broadcastInDim S50000 ![] bcast_S_S50000 (constant S_ .f32 0x00000000#32)))
    (Host.rsqrt (maximumf (degree (F := F) ei) (broadcastInDim S50000 ![] bcast_S_S50000 (constant S_ .f32 0x3F800000#32))))
    (broadcastInDim S50000 ![] bcast_S_S50000 (id (constant S_ .f32 0x00000000#32)))

/-- Each edge's entry of the rescaled Laplacian: -dinv[target] · dinv[source], and 0 on a self-loop. -/
def weight (ei : (⟨S2x800000, .i32⟩ : BufTy).Contents (Elt F)) : (⟨S800000, .f32⟩ : BufTy).Contents (Elt F) :=
  select (cmpi .eq (rowOf (F := F) ei) (colOf (F := F) ei))
    (broadcastInDim S800000 ![] bcast_S_S800000 (id (constant S_ .f32 0x00000000#32)))
    (mulf
      (Host.negf (Host.gather gather_S50000_S800000x1_S800000_n_0_n_n_0_1_1 (dinv (F := F) ei)
        (broadcastInDim S800000x1 ![0] bcast_S800000_S800000x1_0 (wrap (F := F) (rowOf (F := F) ei)))))
      (Host.gather gather_S50000_S800000x1_S800000_n_0_n_n_0_1_1 (dinv (F := F) ei)
        (broadcastInDim S800000x1 ![0] bcast_S800000_S800000x1_0 (wrap (F := F) (colOf (F := F) ei)))))

/-- The gather-scale-scatter at given edge data: per edge e, the weight w[e] times row col[e] of the feature array h
    (the index normalised), scatter-added into row row[e] of a zero array. -/
def spread (row : (⟨S800000, .i32⟩ : BufTy).Contents (Elt F)) (w : (⟨S800000, .f32⟩ : BufTy).Contents (Elt F))
    (col : (⟨S800000, .i32⟩ : BufTy).Contents (Elt F)) (h : (⟨S50000x64, .f32⟩ : BufTy).Contents (Elt F)) :
    (⟨S50000x64, .f32⟩ : BufTy).Contents (Elt F) :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 row)
    (mulf
      (broadcastInDim S800000x64 ![0, 1] bcast_S800000x1_S800000x64_0_1
        (broadcastInDim S800000x1 ![0] bcast_S800000_S800000x1_0 w))
      (Host.gather gather_S50000x64_S800000x1_S800000x64_1_0_n_n_0_1_164 h
        (broadcastInDim S800000x1 ![0] bcast_S800000_S800000x1_0 (wrap (F := F) col))))

/-- The rescaled Laplacian applied to a feature array: per edge, the weight times the source node's row, scatter-added
    into the target node's row of a zero array. -/
def lap (ei : (⟨S2x800000, .i32⟩ : BufTy).Contents (Elt F)) (h : (⟨S50000x64, .f32⟩ : BufTy).Contents (Elt F)) :
    (⟨S50000x64, .f32⟩ : BufTy).Contents (Elt F) :=
  spread (F := F) (rowOf (F := F) ei) (weight (F := F) ei) (colOf (F := F) ei) h

end Cert.Edge

end
-- ==== Proof.HostLines.lean ====
/-
  The idealized kernel's host lines, read at the buffers the two launches take.

  Before the first launch the host computes, from the edge list, the edges' target and source nodes, their Laplacian
  weights, and the Laplacian applied to the input features; it also lays the first bias out as a row. Between the launches
  it applies the Laplacian to the first launch's output and lays the second bias out as a row. Each line is read at an
  arbitrary contents `U` of the buffers at its start and compared with the edge-stage functions of Proof/Edge.lean;
  the edge weights are read once, after the first four stretches, and the fifth stretch and the line between the launches
  are read at the edge data the buffers then hold.
-/
import proofs.«111802_j29386166239457_1_alg».proof.Proof.Gen.KernelIdeal.Frame
import proofs.«111802_j29386166239457_1_alg».proof.Proof.Edge
import Idealize.ShloMosaic.Lib.StableHlo.Run
import Idealize.ShloMosaic.PureOps.Ideal

set_option maxRecDepth 16384

noncomputable section

namespace Cert.KernelIdeal.HostLines

open Idealize.ShloMosaic Idealize.ShloMosaic.TcCoe Idealize.SL.Sem Idealize.ShloMosaic.StableHlo
open Cert.KernelIdeal Cert.KernelIdeal.Gen

/-! At a literal reference whose buffer type is the tensor type it carries, moving contents to or from the buffer's own type
is the identity. One statement per reference the called functions' operations read or write next to plain operations. -/

theorem toBuf_v13 (h1 h2 h3) (v : (⟨S50000, .f32⟩ : BufTy).Contents (Elt Ideal)) :
    (TRef.of (sig := sig) (T := ⟨S50000, .f32⟩) main_v13 h1 h2 h3).toBuf v = v := rfl
theorem toBuf_v31 (h1 h2 h3) (v : (⟨S800000, .f32⟩ : BufTy).Contents (Elt Ideal)) :
    (TRef.of (sig := sig) (T := ⟨S800000, .f32⟩) main_v31 h1 h2 h3).toBuf v = v := rfl
theorem ofBuf_v9 (h1 h2 h3) (v : (⟨S50000, .i1⟩ : BufTy).Contents (Elt Ideal)) :
    (TRef.of (sig := sig) (T := ⟨S50000, .i1⟩) main_v9 h1 h2 h3).ofBuf v = v := rfl
theorem ofBuf_v12 (h1 h2 h3) (v : (⟨S50000, .f32⟩ : BufTy).Contents (Elt Ideal)) :
    (TRef.of (sig := sig) (T := ⟨S50000, .f32⟩) main_v12 h1 h2 h3).ofBuf v = v := rfl
theorem ofBuf_cst_3 (h1 h2 h3) (v : (⟨S_, .f32⟩ : BufTy).Contents (Elt Ideal)) :
    (TRef.of (sig := sig) (T := ⟨S_, .f32⟩) main_cst_3 h1 h2 h3).ofBuf v = v := rfl
theorem ofBuf_v30 (h1 h2 h3) (v : (⟨S800000, .i1⟩ : BufTy).Contents (Elt Ideal)) :
    (TRef.of (sig := sig) (T := ⟨S800000, .i1⟩) main_v30 h1 h2 h3).ofBuf v = v := rfl
theorem ofBuf_v29 (h1 h2 h3) (v : (⟨S800000, .f32⟩ : BufTy).Contents (Elt Ideal)) :
    (TRef.of (sig := sig) (T := ⟨S800000, .f32⟩) main_v29 h1 h2 h3).ofBuf v = v := rfl
theorem ofBuf_cst_7 (h1 h2 h3) (v : (⟨S_, .f32⟩ : BufTy).Contents (Elt Ideal)) :
    (TRef.of (sig := sig) (T := ⟨S_, .f32⟩) main_cst_7 h1 h2 h3).ofBuf v = v := rfl

/-- Contents moved to a typed reference's buffer type and back are unchanged. -/
theorem ofBuf_toBuf {T : BufTy} (x : TRef sig T) (v : T.Contents (Elt Ideal)) : x.ofBuf (x.toBuf v) = v := by
  show cast _ (cast _ v) = v
  rw [cast_cast, cast_eq]

variable (U : Valuation τ sig (Elt Ideal))

/-- The buffers after the first four stretches of host operations, from contents U: the edge data is complete. -/
abbrev mid0 : Valuation τ sig (Elt Ideal) :=
  after hostOps0_3 (after hostOps0_2 (after hostOps0_1 (after hostOps0 U)))

/-- The buffers after the five stretches of host operations before the first launch, from contents U. -/
abbrev before0 : Valuation τ sig (Elt Ideal) := after hostOps0_4 (mid0 U)

/-! ## Before the first launch: the edge data (four stretches)

The operations of a called function (the two selects against a zero) are stated over references that carry their tensor
type; the transports of contents to and from the buffer's own type are removed by the statements above before the two
sides are compared. -/

theorem mid_row : mid0 U (Proc.devRef .tc main_v1) = Edge.rowOf (F := Ideal) (U (Proc.devRef .tc main_arg1)) := by
  simp only [mid0, hostOps0, hostOps0_1, hostOps0_2, hostOps0_3]
  after_results_simp
  rfl

theorem mid_col : mid0 U (Proc.devRef .tc main_v3) = Edge.colOf (F := Ideal) (U (Proc.devRef .tc main_arg1)) := by
  simp only [mid0, hostOps0, hostOps0_1, hostOps0_2, hostOps0_3]
  after_results_simp
  rfl

theorem mid_weight : mid0 U (Proc.devRef .tc main_v31) = Edge.weight (F := Ideal) (U (Proc.devRef .tc main_arg1)) := by
  simp only [mid0, hostOps0, hostOps0_1, hostOps0_2, hostOps0_3]
  after_results_simp
  simp only [ofBuf_toBuf, toBuf_v13, toBuf_v31, ofBuf_v9, ofBuf_v12, ofBuf_cst_3, ofBuf_v30, ofBuf_v29, ofBuf_cst_7]
  rfl

theorem mid_arg0 : mid0 U (Proc.devRef .tc main_arg0) = U (Proc.devRef .tc main_arg0) := by
  simp only [mid0, hostOps0, hostOps0_1, hostOps0_2, hostOps0_3]; after_results_simp
theorem mid_arg2 : mid0 U (Proc.devRef .tc main_arg2) = U (Proc.devRef .tc main_arg2) := by
  simp only [mid0, hostOps0, hostOps0_1, hostOps0_2, hostOps0_3]; after_results_simp
theorem mid_arg3 : mid0 U (Proc.devRef .tc main_arg3) = U (Proc.devRef .tc main_arg3) := by
  simp only [mid0, hostOps0, hostOps0_1, hostOps0_2, hostOps0_3]; after_results_simp
theorem mid_arg4 : mid0 U (Proc.devRef .tc main_arg4) = U (Proc.devRef .tc main_arg4) := by
  simp only [mid0, hostOps0, hostOps0_1, hostOps0_2, hostOps0_3]; after_results_simp
theorem mid_arg5 : mid0 U (Proc.devRef .tc main_arg5) = U (Proc.devRef .tc main_arg5) := by
  simp only [mid0, hostOps0, hostOps0_1, hostOps0_2, hostOps0_3]; after_results_simp
theorem mid_arg6 : mid0 U (Proc.devRef .tc main_arg6) = U (Proc.devRef .tc main_arg6) := by
  simp only [mid0, hostOps0, hostOps0_1, hostOps0_2, hostOps0_3]; after_results_simp
theorem mid_arg7 : mid0 U (Proc.devRef .tc main_arg7) = U (Proc.devRef .tc main_arg7) := by
  simp only [mid0, hostOps0, hostOps0_1, hostOps0_2, hostOps0_3]; after_results_simp

/-! ## Before the first launch: the fifth stretch, at the edge data the buffers hold -/

theorem tail_lap : after hostOps0_4 U (Proc.devRef .tc main_v44)
    = Edge.spread (F := Ideal) (U (Proc.devRef .tc main_v1)) (U (Proc.devRef .tc main_v31)) (U (Proc.devRef .tc main_v3))
        (U (Proc.devRef .tc main_arg0)) := by
  simp only [hostOps0_4]; after_results_simp; rfl

theorem tail_bias : after hostOps0_4 U (Proc.devRef .tc main_v45) = shapeCast S1x64 (U (Proc.devRef .tc main_arg4)) shapeCasts_S64_S1x64 := by
  simp only [hostOps0_4]; after_results_simp; rfl

theorem tail_v1 : after hostOps0_4 U (Proc.devRef .tc main_v1) = U (Proc.devRef .tc main_v1) := by
  simp only [hostOps0_4]; after_results_simp
theorem tail_v3 : after hostOps0_4 U (Proc.devRef .tc main_v3) = U (Proc.devRef .tc main_v3) := by
  simp only [hostOps0_4]; after_results_simp
theorem tail_v31 : after hostOps0_4 U (Proc.devRef .tc main_v31) = U (Proc.devRef .tc main_v31) := by
  simp only [hostOps0_4]; after_results_simp
theorem tail_arg0 : after hostOps0_4 U (Proc.devRef .tc main_arg0) = U (Proc.devRef .tc main_arg0) := by
  simp only [hostOps0_4]; after_results_simp
theorem tail_arg2 : after hostOps0_4 U (Proc.devRef .tc main_arg2) = U (Proc.devRef .tc main_arg2) := by
  simp only [hostOps0_4]; after_results_simp
theorem tail_arg3 : after hostOps0_4 U (Proc.devRef .tc main_arg3) = U (Proc.devRef .tc main_arg3) := by
  simp only [hostOps0_4]; after_results_simp
theorem tail_arg5 : after hostOps0_4 U (Proc.devRef .tc main_arg5) = U (Proc.devRef .tc main_arg5) := by
  simp only [hostOps0_4]; after_results_simp
theorem tail_arg6 : after hostOps0_4 U (Proc.devRef .tc main_arg6) = U (Proc.devRef .tc main_arg6) := by
  simp only [hostOps0_4]; after_results_simp
theorem tail_arg7 : after hostOps0_4 U (Proc.devRef .tc main_arg7) = U (Proc.devRef .tc main_arg7) := by
  simp only [hostOps0_4]; after_results_simp

/-! ## Before the first launch: the buffers the launches read -/

theorem row0 : before0 U (Proc.devRef .tc main_v1) = Edge.rowOf (F := Ideal) (U (Proc.devRef .tc main_arg1)) :=
  (tail_v1 (mid0 U)).trans (mid_row U)

theorem col0 : before0 U (Proc.devRef .tc main_v3) = Edge.colOf (F := Ideal) (U (Proc.devRef .tc main_arg1)) :=
  (tail_v3 (mid0 U)).trans (mid_col U)

theorem weight0 : before0 U (Proc.devRef .tc main_v31) = Edge.weight (F := Ideal) (U (Proc.devRef .tc main_arg1)) :=
  (tail_v31 (mid0 U)).trans (mid_weight U)

/-- The Laplacian applied to the input features. -/
theorem lap0 : before0 U (Proc.devRef .tc main_v44)
    = Edge.lap (F := Ideal) (U (Proc.devRef .tc main_arg1)) (U (Proc.devRef .tc main_arg0)) := by
  refine (tail_lap (mid0 U)).trans ?_
  rw [mid_row, mid_weight, mid_col, mid_arg0]
  rfl

/-- The first bias laid out as a row. -/
theorem bias0 : before0 U (Proc.devRef .tc main_v45) = shapeCast S1x64 (U (Proc.devRef .tc main_arg4)) shapeCasts_S64_S1x64 := by
  refine (tail_bias (mid0 U)).trans ?_
  rw [mid_arg4]

theorem keep0_arg0 : before0 U (Proc.devRef .tc main_arg0) = U (Proc.devRef .tc main_arg0) :=
  (tail_arg0 (mid0 U)).trans (mid_arg0 U)
theorem keep0_arg2 : before0 U (Proc.devRef .tc main_arg2) = U (Proc.devRef .tc main_arg2) :=
  (tail_arg2 (mid0 U)).trans (mid_arg2 U)
theorem keep0_arg3 : before0 U (Proc.devRef .tc main_arg3) = U (Proc.devRef .tc main_arg3) :=
  (tail_arg3 (mid0 U)).trans (mid_arg3 U)
theorem keep0_arg5 : before0 U (Proc.devRef .tc main_arg5) = U (Proc.devRef .tc main_arg5) :=
  (tail_arg5 (mid0 U)).trans (mid_arg5 U)
theorem keep0_arg6 : before0 U (Proc.devRef .tc main_arg6) = U (Proc.devRef .tc main_arg6) :=
  (tail_arg6 (mid0 U)).trans (mid_arg6 U)
theorem keep0_arg7 : before0 U (Proc.devRef .tc main_arg7) = U (Proc.devRef .tc main_arg7) :=
  (tail_arg7 (mid0 U)).trans (mid_arg7 U)

/-! ## Between the launches -/

/-- The gather-scale-scatter of the first launch's output, at the edge data the buffers hold. -/
theorem lap1 : after hostOps1 U (Proc.devRef .tc main_v59)
    = Edge.spread (F := Ideal) (U (Proc.devRef .tc main_v1)) (U (Proc.devRef .tc main_v31)) (U (Proc.devRef .tc main_v3))
        (U (Proc.devRef .tc main_v46)) := by
  simp only [hostOps1]
  after_results_simp
  rfl

/-- The second bias laid out as a row. -/
theorem bias1 : after hostOps1 U (Proc.devRef .tc main_v60) = shapeCast S1x40 (U (Proc.devRef .tc main_arg7)) shapeCasts_S40_S1x40 := by
  simp only [hostOps1]
  after_results_simp
  rfl

theorem keep1_v46 : after hostOps1 U (Proc.devRef .tc main_v46) = U (Proc.devRef .tc main_v46) := by
  simp only [hostOps1]
  after_results_simp

theorem keep1_arg5 : after hostOps1 U (Proc.devRef .tc main_arg5) = U (Proc.devRef .tc main_arg5) := by
  simp only [hostOps1]
  after_results_simp

theorem keep1_arg6 : after hostOps1 U (Proc.devRef .tc main_arg6) = U (Proc.devRef .tc main_arg6) := by
  simp only [hostOps1]
  after_results_simp

end Cert.KernelIdeal.HostLines

end
-- ==== Proof.Net.lean ====
/-
  The two-layer Chebyshev network as one function of its arguments, over the extended reals.

  With L~ the rescaled Laplacian of the edge list (Proof/Edge.lean) and the row functions of Proof/Rows.lean:
    H   = relu (x · W0_1 + (L~ x) · W1_1 + b1)                     on the 50000 nodes, 64 features each,
    out = log_softmax (H · W0_2 + (L~ H) · W1_2 + b2, along a row)  on the 50000 nodes, 40 classes each.
  Both programs are shown to compute `net` of their arguments.
-/
import proofs.«111802_j29386166239457_1_alg».proof.Proof.Rows
import proofs.«111802_j29386166239457_1_alg».proof.Proof.Edge

noncomputable section

namespace Cert.Cheb

open Idealize.ShloMosaic Idealize.ShloMosaic.ValueIdx Cert.ReferenceIdeal

/-- The hidden features. -/
def netHidden (x : FVec Ideal S50000x64 .f32) (ei : (⟨S2x800000, .i32⟩ : BufTy).Contents (Elt Ideal))
    (W0 W1 : FVec Ideal S64x64 .f32) (b : FVec Ideal S64 .f32) : FVec Ideal S50000x64 .f32 :=
  hidden x (Edge.lap (F := Ideal) ei x) W0 W1 (fun q => b (ix1 q))

/-- The network's result. -/
def net (x : FVec Ideal S50000x64 .f32) (ei : (⟨S2x800000, .i32⟩ : BufTy).Contents (Elt Ideal))
    (W01 W11 : FVec Ideal S64x64 .f32) (b1 : FVec Ideal S64 .f32) (W02 W12 : FVec Ideal S64x40 .f32) (b2 : FVec Ideal S40 .f32) :
    FVec Ideal S50000x40 .f32 :=
  output (netHidden x ei W01 W11 b1) (Edge.lap (F := Ideal) ei (netHidden x ei W01 W11 b1)) W02 W12 (fun q => b2 (ix1 q))

end Cert.Cheb

end
-- ==== Proof.Whole.lean ====
/-
  The idealized kernel's whole run, with every buffer named.

  The two kernel launches run among stretches of host operations; the contents of the device's buffers at each
  boundary are a fold from the launch memory (`Gen.W0` … `Gen.W8`). Every weakly fair execution terminates, nothing
  faulting, and every buffer that outlives the launches ends at the last boundary's contents `Gen.W8`: in particular
  the result array, which is the second launch's output array. This is the frame claim's run with its post kept
  whole instead of being narrowed to the argument arrays.
-/
import proofs.«111802_j29386166239457_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every buffer that outlives the launches at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The result array ends at the last boundary's contents. -/
theorem result_at (s : MemSt nD τ sig (Elt F))
    (h : ∀ c : Dev nD, ∀ b ∈ Pipeline.ucRefs τ sig, s.mem (((c : Thread nD τ)).1, b) = W8 m ρ c b) (c : Dev nD) :
    s.mem ((c.tc : Thread nD τ).loc main_v61) = W8 m ρ c (Proc.devRef .tc main_v61) :=
  h c _ (mem_uc main_v61 (by decide))

end Cert.KernelIdeal.Whole

end
-- ==== Proof.KernelValue.lean ====
/-
  The idealized kernel's result as the network of Proof/Net.lean.

  The result array is the second launch's output array, so it ends at the second layer of the arrays that launch finds
  (Proof/Blocks.lean). Those are: the first launch's output array, which ends at the first layer of the arrays the first
  launch finds — the input features, the Laplacian applied to them (Proof/HostLines.lean), the first weights and bias —, i.e. the
  hidden features; the Laplacian applied to the hidden features, which the host computes between the launches from the
  edge data it computed before the first (a launch leaves every buffer but its own arrays as it found it); and the
  second weights and bias, which nothing writes.
-/
import proofs.«111802_j29386166239457_1_alg».proof.Proof.Blocks
import proofs.«111802_j29386166239457_1_alg».proof.Proof.HostLines
import proofs.«111802_j29386166239457_1_alg».proof.Proof.Net
import proofs.«111802_j29386166239457_1_alg».proof.Proof.Whole

set_option maxRecDepth 16384

noncomputable section

namespace Cert.KernelIdeal.NetValue

open Idealize.ShloMosaic Idealize.ShloMosaic.TcCoe Idealize.ShloMosaic.ValueIdx Idealize.SL.Sem
open Cert.KernelIdeal Cert.KernelIdeal.Gen

/-- A vector [a] laid out as the row [1, a] reads, at (u, q), the vector's entry q. -/
theorem row_of_vec_apply {α : Type} {a : Nat} (x : (⟨1, ![a]⟩ : Shape).Idx → α)
    (h : (⟨1, ![a]⟩ : Shape).ShapeCasts ⟨2, ![1, a]⟩) (u : Fin 1) (q : Fin a) :
    shapeCast ⟨2, ![1, a]⟩ x h (ix2 u q) = x (ix1 q) :=
  shapeCast_apply x h _ _ (by
    have hu : u.val = 0 := by omega
    rw [Shape.rowMajor_val_one, Shape.rowMajor_val_two]
    show q.val = u.val * a + q.val
    rw [hu, Nat.zero_mul, Nat.zero_add])

variable (m : (ℓ : Loc nD τ sig) → Buf (Elt Ideal) ℓ) (ρ : Dev nD → PrngReg)

/-- THE FIRST LAUNCH'S OUTPUT ARRAY ends at the hidden features of the arguments. -/
theorem hidden_eq (c : Dev nD) :
    W6 m ρ c (Proc.devRef .tc main_v46)
      = Cheb.netHidden (m ((c : Thread nD τ).loc main_arg0)) (m ((c : Thread nD τ).loc main_arg1))
          (m ((c : Thread nD τ).loc main_arg2)) (m ((c : Thread nD τ).loc main_arg3)) (m ((c : Thread nD τ).loc main_arg4)) := by
  refine (W6_arr m ρ c 5).trans ((Blocks.final0 (V5 m ρ) c).trans ?_)
  have h0 : V5 m ρ c main_arg0 = m ((c : Thread nD τ).loc main_arg0) := HostLines.keep0_arg0 (W0 m ρ c)
  have h2 : V5 m ρ c main_arg2 = m ((c : Thread nD τ).loc main_arg2) := HostLines.keep0_arg2 (W0 m ρ c)
  have h3 : V5 m ρ c main_arg3 = m ((c : Thread nD τ).loc main_arg3) := HostLines.keep0_arg3 (W0 m ρ c)
  have h44 : V5 m ρ c main_v44
      = Edge.lap (F := Ideal) (m ((c : Thread nD τ).loc main_arg1)) (m ((c : Thread nD τ).loc main_arg0)) :=
    HostLines.lap0 (W0 m ρ c)
  have h45 : (fun q : Fin 64 => V5 m ρ c main_v45 (ix2 (0 : Fin 1) q))
      = fun q => m ((c : Thread nD τ).loc main_arg4) (ix1 q) := funext fun q => by
    rw [show V5 m ρ c main_v45 = _ from HostLines.bias0 (W0 m ρ c)]
    exact row_of_vec_apply _ _ 0 q
  unfold Blocks.layer0 Cheb.netHidden
  rw [h0, h2, h3, h44, h45]

/-- THE RESULT ARRAY ends at the network of the arguments. -/
theorem result_eq (c : Dev nD) :
    W8 m ρ c (Proc.devRef .tc main_v61)
      = Cheb.net (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  refine (W8_arr m ρ c 5).trans ((Blocks.final1 (V7 m ρ) c).trans ?_)
  have hH : V7 m ρ c main_v46 = _ := (HostLines.keep1_v46 (W6 m ρ c)).trans (hidden_eq m ρ c)
  have hrow : W6 m ρ c (Proc.devRef .tc main_v1) = Edge.rowOf (F := Ideal) (m ((c : Thread nD τ).loc main_arg1)) :=
    (W6_of_ne m ρ c main_v1 (by decide)).trans (HostLines.row0 (W0 m ρ c))
  have hcol : W6 m ρ c (Proc.devRef .tc main_v3) = Edge.colOf (F := Ideal) (m ((c : Thread nD τ).loc main_arg1)) :=
    (W6_of_ne m ρ c main_v3 (by decide)).trans (HostLines.col0 (W0 m ρ c))
  have hw : W6 m ρ c (Proc.devRef .tc main_v31) = Edge.weight (F := Ideal) (m ((c : Thread nD τ).loc main_arg1)) :=
    (W6_of_ne m ρ c main_v31 (by decide)).trans (HostLines.weight0 (W0 m ρ c))
  have hL : V7 m ρ c main_v59 = Edge.lap (F := Ideal) (m ((c : Thread nD τ).loc main_arg1))
      (Cheb.netHidden (m ((c : Thread nD τ).loc main_arg0)) (m ((c : Thread nD τ).loc main_arg1))
        (m ((c : Thread nD τ).loc main_arg2)) (m ((c : Thread nD τ).loc main_arg3)) (m ((c : Thread nD τ).loc main_arg4))) := by
    refine (HostLines.lap1 (W6 m ρ c)).trans ?_
    rw [hrow, hcol, hw, hidden_eq m ρ c]
    rfl
  have h5 : V7 m ρ c main_arg5 = m ((c : Thread nD τ).loc main_arg5) :=
    (HostLines.keep1_arg5 (W6 m ρ c)).trans ((W6_of_ne m ρ c main_arg5 (by decide)).trans (HostLines.keep0_arg5 (W0 m ρ c)))
  have h6 : V7 m ρ c main_arg6 = m ((c : Thread nD τ).loc main_arg6) :=
    (HostLines.keep1_arg6 (W6 m ρ c)).trans ((W6_of_ne m ρ c main_arg6 (by decide)).trans (HostLines.keep0_arg6 (W0 m ρ c)))
  have h7 : W6 m ρ c (Proc.devRef .tc main_arg7) = m ((c : Thread nD τ).loc main_arg7) :=
    (W6_of_ne m ρ c main_arg7 (by decide)).trans (HostLines.keep0_arg7 (W0 m ρ c))
  have hb : (fun q : Fin 40 => V7 m ρ c main_v60 (ix2 (0 : Fin 1) q))
      = fun q => m ((c : Thread nD τ).loc main_arg7) (ix1 q) := funext fun q => by
    rw [show V7 m ρ c main_v60 = _ from HostLines.bias1 (W6 m ρ c), h7]
    exact row_of_vec_apply _ _ 0 q
  unfold Blocks.layer1 Cheb.net
  rw [hH, hL, h5, h6, hb]

/-- THE RUN: every weakly fair execution of the idealized kernel terminates, nothing faulting, with the result array at the
    network of the argument arrays and the argument arrays as launched. -/
theorem run : θ_run defs (onTc (τ := τ) (main (F := Ideal))) ⟨m, fun _ => 0, ρ⟩ (fun r => ∀ c : Dev nD,
      r.2.mem ((c.tc : Thread nD τ).loc main_v61)
        = Cheb.net (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨(Whole.result_at m ρ r.2 h c).trans (result_eq m ρ c),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)
    (Whole.run_all m ρ)

end Cert.KernelIdeal.NetValue

end
-- ==== Proof.LibDotGeneralPlain.lean ====
/-
  The host's matrix product read at an index, over the extended reals, and the product as one function.

  `matProd x w` is the M×N matrix whose entry (p, q) is  Σ_{k < K} x(p, k) · w(k, q).  For the dimension numbers of a
  plain M×K by K×N product, the host's `dot_general` (which accumulates onto zero) is `matProd` of its operands, entry
  by entry; together with the same reading of a kernel's matrix product into the zero accumulator
  (LibMatmulPlain) this is what lets a product computed row block by row block be compared with one whole product.
  Generic in M, K, N and in the operands' formats.
-/
import proofs.«111802_j29386166239457_1_alg».proof.Proof.LibMatmulPlain

noncomputable section

open scoped BigOperators

namespace Cert.LibDotGeneralPlain

open Idealize.ShloMosaic Idealize.ShloMosaic.ValueIdx Cert.LibMatmulPlain

variable {M K N : Nat}

/-- The M×K by K×N matrix product over the extended reals: entry (p, q) is the sum over k of x(p, k) · w(k, q). -/
def matProd (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem matProd_apply (x : (⟨2, ![M, K]⟩ : Shape).Idx → EReal) (w : (⟨2, ![K, N]⟩ : Shape).Idx → EReal) (p : Fin M) (q : Fin N) :
    matProd x w (ix2 p q) = ∑ k : Fin K, x (ix2 p k) * w (ix2 k q) := rfl

/-- THE HOST'S PRODUCT AT AN ENTRY: `dot_general` with plain dimension numbers is at `(p, q)` the sum over the
    contracted axis of the operands' products, whatever the precision and the schedule key. -/
theorem dotGeneral_plain_apply {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral D prec sched lhs rhs (ix2 p q) = ∑ k : Fin K, lhs (ix2 p k) * rhs (ix2 k q) := by
  subst hD
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

/-- The host's whole product is `matProd` of its operands. -/
theorem dotGeneral_plain_eq {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) :
    FloatOps.dotGeneral D prec sched lhs rhs = matProd lhs rhs := by
  funext i
  obtain ⟨p, q, rfl⟩ : ∃ (p : Fin M) (q : Fin N), i = ix2 p q := ⟨i 0, i 1, eq_ix2 i⟩
  rw [dotGeneral_plain_apply D hD, matProd_apply]

end Cert.LibDotGeneralPlain

end
-- ==== Proof.LibHostBroadcast.lean ====
/-
  Host broadcasts of a column, of a row and of a scalar, read at an index given by coordinates.

  `broadcast_in_dim` moves no data. A column [a, 1] broadcast over b columns has, at (p, c), the column's entry (p, 0);
  a row [1, b] broadcast over a rows has, at (p, c), the row's entry (0, c); a vector [b] placed as the row [1, b] has,
  at (u, c), the vector's entry c; a scalar broadcast to any shape has the scalar everywhere. Composed: a vector [a]
  kept as a column and spread over the columns reads its entry p at (p, c), a vector [b] placed as a row and spread
  over the rows reads its entry c. Generic in the extents; the axis maps are passed with their values.
-/
import Idealize.ShloMosaic.Lib.Pipeline.Value
import Idealize.ShloMosaic.Lib.ValueIdx

namespace Cert.LibHostBroadcast

open Idealize.ShloMosaic Idealize.ShloMosaic.ValueIdx

variable {α : Type}

/-- An [a, 1] column broadcast (axes kept in place) over b columns reads, at (p, c), the column at (p, 0). -/
theorem bcast_a1_ab_apply {a b : ℕ} (dims : Fin (⟨2, ![a, 1]⟩ : Shape).rank → Fin (⟨2, ![a, b]⟩ : Shape).rank)
    (hd0 : dims ⟨0, Nat.succ_pos 1⟩ = ⟨0, Nat.succ_pos 1⟩)
    (h : (⟨2, ![a, 1]⟩ : Shape).BroadcastsInDim ⟨2, ![a, b]⟩ dims) (x : (⟨2, ![a, 1]⟩ : Shape).Idx → α)
    (p : Fin a) (c : Fin b) : broadcastInDim ⟨2, ![a, b]⟩ dims h x (ix2 p c) = x (ix2 p (0 : Fin 1)) := by
  refine broadcastInDim_apply dims h x (ix2 p c) (ix2 p (0 : Fin 1)) fun ax => ?_
  match ax with
  | ⟨0, _⟩ =>
    show p.val = if a = 1 then 0 else (ix2 p c (dims ⟨0, Nat.succ_pos 1⟩)).val
    rw [hd0]
    show p.val = if a = 1 then 0 else p.val
    split
    · have := p.isLt; omega
    · rfl
  | ⟨1, _⟩ => rfl

/-- A [1, b] row broadcast (axes kept in place) over a rows reads, at (p, c), the row at (0, c). -/
theorem bcast_1b_ab_apply {a b : ℕ} (dims : Fin (⟨2, ![1, b]⟩ : Shape).rank → Fin (⟨2, ![a, b]⟩ : Shape).rank)
    (hd1 : dims ⟨1, Nat.lt_succ_self 1⟩ = ⟨1, Nat.lt_succ_self 1⟩)
    (h : (⟨2, ![1, b]⟩ : Shape).BroadcastsInDim ⟨2, ![a, b]⟩ dims) (x : (⟨2, ![1, b]⟩ : Shape).Idx → α)
    (p : Fin a) (c : Fin b) : broadcastInDim ⟨2, ![a, b]⟩ dims h x (ix2 p c) = x (ix2 (0 : Fin 1) c) := by
  refine broadcastInDim_apply dims h x (ix2 p c) (ix2 (0 : Fin 1) c) fun ax => ?_
  match ax with
  | ⟨0, _⟩ => rfl
  | ⟨1, _⟩ =>
    show c.val = if b = 1 then 0 else (ix2 p c (dims ⟨1, Nat.lt_succ_self 1⟩)).val
    rw [hd1]
    show c.val = if b = 1 then 0 else c.val
    split
    · have := c.isLt; omega
    · rfl

/-- A vector [b] placed along axis 1 of a [1, b] row reads, at (u, c), the vector at c. -/
theorem bcast_b_1b_apply {b : ℕ} (dims : Fin (⟨1, ![b]⟩ : Shape).rank → Fin (⟨2, ![1, b]⟩ : Shape).rank)
    (hd : dims ⟨0, Nat.one_pos⟩ = ⟨1, Nat.lt_succ_self 1⟩)
    (h : (⟨1, ![b]⟩ : Shape).BroadcastsInDim ⟨2, ![1, b]⟩ dims) (x : (⟨1, ![b]⟩ : Shape).Idx → α)
    (u : Fin 1) (c : Fin b) : broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else (ix2 u c (dims ⟨0, Nat.one_pos⟩)).val
    rw [hd]
    show c.val = if b = 1 then 0 else c.val
    split
    · have := c.isLt; omega
    · rfl

/-- A vector [a] placed along axis 0 of an [a, 1] column reads, at (p, u), the vector at p. -/
theorem bcast_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (p : Fin a) (u : Fin 1) : broadcastInDim ⟨2, ![a, 1]⟩ dims h x (ix2 p u) = x (ix1 p) := by
  refine broadcastInDim_apply dims h x (ix2 p u) (ix1 p) fun ax => ?_
  match ax with
  | ⟨0, _⟩ =>
    show p.val = if a = 1 then 0 else (ix2 p u (dims ⟨0, Nat.one_pos⟩)).val
    rw [hd]
    show p.val = if a = 1 then 0 else p.val
    split
    · have := p.isLt; omega
    · rfl

/-- A scalar broadcast to any shape is the scalar at every index. -/
theorem bcast_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

end Cert.LibHostBroadcast
-- ==== Proof.LibHostRowSum.lean ====
/-
  The host's sum over each row of a matrix, read at a row.

  The host sums the last axis of an [a, c] matrix by a reduce whose body is an addition, from an initial value held in a
  rank-0 array. Over the extended reals that is, at row p, the initial value plus the sum of the c entries (p, q) of the row.
  Generic in a and c; the witness that names the inserted coordinate is an argument.
-/
import Idealize.ShloMosaic.PureOps.Ideal.Laws
import Idealize.ShloMosaic.Lib.ValueIdx

noncomputable section

open scoped BigOperators

namespace Cert.LibHostRowSum

open Idealize.ShloMosaic Idealize.ShloMosaic.ValueIdx

/-- The host's add-reduce over the last axis of [a, c], from the initial value `init`, at row `p`. -/
theorem host_sum_last_apply {a c : Nat} {u : Shape} (x : FVec Ideal ⟨2, ![a, c]⟩ .f32) (init : u.Idx → Ideal .f32)
    (h' : (⟨2, ![a, c]⟩ : Shape).ReducesTo [1] ⟨1, ![a]⟩) (h : (⟨2, ![a, c]⟩ : Shape).Reduces [1] ⟨1, ![a]⟩)
    (hu : 0 < u.numel) (p : Fin a) :
    Host.reduceAdd x init h' hu (ix1 p) = init (Shape.Idx.first hu) + ∑ q : Fin c, x (ix2 p q) := by
  simp only [Host.reduceAdd, Ideal.hostReduceAdd_def]
  rw [Ideal.hostReduceAdd_single h' h]
  refine congrArg (_ + ·) (Finset.sum_congr rfl fun q _ => ?_)
  exact congrArg x (funext fun ax => Fin.ext (by
    match ax with
    | ⟨0, _⟩ => rfl
    | ⟨1, _⟩ => rfl))

end Cert.LibHostRowSum

end
-- ==== Proof.HostLayers.lean ====
/-
  The reference's two layers, as whole-array functions over the extended reals.

  On the host a layer is  x · W0 + tx · W1  by two whole matrix products, plus the bias vector placed as a row and
  spread over the 50000 rows. The first layer takes the maximum with a zero array; the second takes the logarithm of
  the softmax along each row: the row maximum by a reduce from minus infinity (and once more against minus infinity,
  which changes nothing), kept as a column and spread back; the row sum of the exponentials by a reduce from zero.
  Entry (p, q) of each is the row function of Proof/Rows.lean at row p of the two feature arrays.
-/
import proofs.«111802_j29386166239457_1_alg».proof.Proof.Gen.ReferenceIdeal
import proofs.«111802_j29386166239457_1_alg».proof.Proof.Rows
import proofs.«111802_j29386166239457_1_alg».proof.Proof.LibDotGeneralPlain
import proofs.«111802_j29386166239457_1_alg».proof.Proof.LibHostBroadcast
import proofs.«111802_j29386166239457_1_alg».proof.Proof.LibRowMax
import proofs.«111802_j29386166239457_1_alg».proof.Proof.LibHostRowSum
import Idealize.ShloMosaic.Lib.ValueIdx
import Idealize.ShloMosaic.PureOps.Ideal.Laws

noncomputable section

open scoped BigOperators

namespace Cert.ReferenceIdeal.Layers

open Idealize.ShloMosaic Idealize.ShloMosaic.ValueIdx Cert.ReferenceIdeal Cert.ReferenceIdeal.Gen

/-- The first layer's pre-activation on the host. -/
def pre64 (x tx : FVec Ideal S50000x64 .f32) (W0 W1 : FVec Ideal S64x64 .f32) (b : FVec Ideal S64 .f32) : FVec Ideal S50000x64 .f32 :=
  addf (addf (Host.dotGeneral dot_S50000x64_S64x64_S50000x64_1_0_0_1_n_n none x W0)
      (Host.dotGeneral dot_S50000x64_S64x64_S50000x64_1_0_0_1_n_n none tx W1))
    (broadcastInDim S50000x64 ![0, 1] bcast_S1x64_S50000x64_0_1 (broadcastInDim S1x64 ![1] bcast_S64_S1x64_1 b))

theorem pre64_apply (x tx : FVec Ideal S50000x64 .f32) (W0 W1 : FVec Ideal S64x64 .f32) (b : FVec Ideal S64 .f32)
    (p : Fin 50000) (q : Fin 64) :
    pre64 x tx W0 W1 b (ix2 p q) = Cheb.pre (fun k => x (ix2 p k)) (fun k => tx (ix2 p k)) W0 W1 (fun q' => b (ix1 q')) q := by
  unfold pre64 Cheb.pre
  rw [addf_apply, addf_apply]
  simp only [Host.dotGeneral]
  rw [LibDotGeneralPlain.dotGeneral_plain_apply dot_S50000x64_S64x64_S50000x64_1_0_0_1_n_n rfl,
    LibDotGeneralPlain.dotGeneral_plain_apply dot_S50000x64_S64x64_S50000x64_1_0_0_1_n_n rfl,
    LibHostBroadcast.bcast_1b_ab_apply _ rfl, LibHostBroadcast.bcast_b_1b_apply _ rfl]

/-- The second layer's pre-activation on the host. -/
def pre40 (h tx : FVec Ideal S50000x64 .f32) (W0 W1 : FVec Ideal S64x40 .f32) (b : FVec Ideal S40 .f32) : FVec Ideal S50000x40 .f32 :=
  addf (addf (Host.dotGeneral dot_S50000x64_S64x40_S50000x40_1_0_0_1_n_n none h W0)
      (Host.dotGeneral dot_S50000x64_S64x40_S50000x40_1_0_0_1_n_n none tx W1))
    (broadcastInDim S50000x40 ![0, 1] bcast_S1x40_S50000x40_0_1 (broadcastInDim S1x40 ![1] bcast_S40_S1x40_1 b))

theorem pre40_apply (h tx : FVec Ideal S50000x64 .f32) (W0 W1 : FVec Ideal S64x40 .f32) (b : FVec Ideal S40 .f32)
    (p : Fin 50000) (q : Fin 40) :
    pre40 h tx W0 W1 b (ix2 p q) = Cheb.pre (fun k => h (ix2 p k)) (fun k => tx (ix2 p k)) W0 W1 (fun q' => b (ix1 q')) q := by
  unfold pre40 Cheb.pre
  rw [addf_apply, addf_apply]
  simp only [Host.dotGeneral]
  rw [LibDotGeneralPlain.dotGeneral_plain_apply dot_S50000x64_S64x40_S50000x40_1_0_0_1_n_n rfl,
    LibDotGeneralPlain.dotGeneral_plain_apply dot_S50000x64_S64x40_S50000x40_1_0_0_1_n_n rfl,
    LibHostBroadcast.bcast_1b_ab_apply _ rfl, LibHostBroadcast.bcast_b_1b_apply _ rfl]

/-- THE REFERENCE'S FIRST LAYER is the row function `Cheb.hiddenRow` at every row. -/
theorem hidden_eq (x tx : FVec Ideal S50000x64 .f32) (W0 W1 : FVec Ideal S64x64 .f32) (b : FVec Ideal S64 .f32) :
    maximumf (pre64 x tx W0 W1 b) (broadcastInDim S50000x64 ![] bcast_S_S50000x64 (constant (F := Ideal) S_ .f32 0x00000000#32))
      = Cheb.hidden x tx W0 W1 (fun q => b (ix1 q)) := by
  funext i
  obtain ⟨p, q, rfl⟩ : ∃ (p : Fin 50000) (q : Fin 64), i = ix2 p q := ⟨i 0, i 1, eq_ix2 i⟩
  rw [Cheb.hidden_apply, maximumf_apply, pre64_apply, LibHostBroadcast.bcast_scalar_apply, constant_apply]
  rfl

/-- The row maximum as the host takes it, spread back over the 40 columns. -/
def rowTop (y : FVec Ideal S50000x40 .f32) : FVec Ideal S50000x40 .f32 :=
  broadcastInDim S50000x40 ![0, 1] bcast_S50000x1_S50000x40_0_1 (broadcastInDim S50000x1 ![0] bcast_S50000_S50000x1_0
    (maximumf (broadcastInDim S50000 ![] bcast_S_S50000 (constant (F := Ideal) S_ .f32 0xFF800000#32))
      (Host.reduce FloatOps.maximumf y (constant (F := Ideal) S_ .f32 0xFF800000#32) reducesTo_S50000x40_S50000_d1 h_S_)))

theorem rowTop_apply (y : FVec Ideal S50000x40 .f32) (p : Fin 50000) (q : Fin 40) :
    rowTop y (ix2 p q) = Cheb.top (fun q' => y (ix2 p q')) := by
  unfold rowTop
  rw [LibHostBroadcast.bcast_a1_ab_apply _ rfl, LibHostBroadcast.bcast_a_a1_apply _ rfl, maximumf_apply,
    LibHostBroadcast.bcast_scalar_apply, constant_apply,
    LibRowMax.host_max_last_apply y _ reducesTo_S50000x40_S50000_d1 (by decide) h_S_ p]
  exact Cheb.max_top _

/-- The logarithm of the softmax along each row, as the host takes it. -/
def logSoftmax (y : FVec Ideal S50000x40 .f32) : FVec Ideal S50000x40 .f32 :=
  subf (subf y (rowTop y))
    (broadcastInDim S50000x40 ![0, 1] bcast_S50000x1_S50000x40_0_1 (Host.log (broadcastInDim S50000x1 ![0] bcast_S50000_S50000x1_0
      (Host.reduceAdd (Host.exp (subf y (rowTop y))) (constant (F := Ideal) S_ .f32 0x00000000#32) reducesTo_S50000x40_S50000_d1 h_S_))))

/-- The host's logarithm and exponential act entry by entry. -/
theorem host_log_apply {s : Shape} (v : FVec Ideal s .f32) (i : s.Idx) : Host.log v i = Ideal.log (v i) := rfl
theorem host_exp_apply {s : Shape} (v : FVec Ideal s .f32) (i : s.Idx) : Host.exp v i = Ideal.exp (v i) := rfl

/-- The host's logarithm of the softmax at an entry: two differences, the second against the spread logarithm of
    the row sum. -/
theorem logSoftmax_at (y : FVec Ideal S50000x40 .f32) (p : Fin 50000) (q : Fin 40) :
    logSoftmax y (ix2 p q) = (y (ix2 p q) - rowTop y (ix2 p q))
      - (broadcastInDim S50000x40 ![0, 1] bcast_S50000x1_S50000x40_0_1 (Host.log (broadcastInDim S50000x1 ![0] bcast_S50000_S50000x1_0
          (Host.reduceAdd (Host.exp (subf y (rowTop y))) (constant (F := Ideal) S_ .f32 0x00000000#32) reducesTo_S50000x40_S50000_d1 h_S_))))
        (ix2 p q) := rfl

theorem logSoftmax_apply (y : FVec Ideal S50000x40 .f32) (p : Fin 50000) (q : Fin 40) :
    logSoftmax y (ix2 p q) = Cheb.logSoftmax (fun q' => y (ix2 p q')) q := by
  rw [logSoftmax_at, rowTop_apply, LibHostBroadcast.bcast_a1_ab_apply _ rfl, host_log_apply,
    LibHostBroadcast.bcast_a_a1_apply _ rfl,
    LibHostRowSum.host_sum_last_apply _ _ reducesTo_S50000x40_S50000_d1 (by decide) h_S_ p, constant_apply,
    Ideal.ofBits_zero_f32, zero_add]
  unfold Cheb.logSoftmax
  refine congrArg (fun s => _ - Ideal.log s) (Finset.sum_congr rfl fun q' _ => ?_)
  rw [host_exp_apply, subf_apply, rowTop_apply]

/-- THE REFERENCE'S SECOND LAYER is the row function `Cheb.outRow` at every row. -/
theorem output_eq (h tx : FVec Ideal S50000x64 .f32) (W0 W1 : FVec Ideal S64x40 .f32) (b : FVec Ideal S40 .f32) :
    logSoftmax (pre40 h tx W0 W1 b) = Cheb.output h tx W0 W1 (fun q => b (ix1 q)) := by
  funext i
  obtain ⟨p, q, rfl⟩ : ∃ (p : Fin 50000) (q : Fin 40), i = ix2 p q := ⟨i 0, i 1, eq_ix2 i⟩
  rw [Cheb.output_apply, logSoftmax_apply]
  unfold Cheb.outRow
  exact congrArg (fun a => Cheb.logSoftmax a q) (funext fun q' => pre40_apply h tx W0 W1 b p q')

end Cert.ReferenceIdeal.Layers

end
-- ==== Proof.RefStages.lean ====
/-
  The idealized reference's line of host operations, cut into four segments and read one segment at a time.

  The reference's @main is one line of 108 host operations. The first 46 compute, from the edge list alone, the edges'
  target and source nodes and their Laplacian weights; the next 25 the first layer; the next 22 the second layer's
  pre-activation; the last 15 the logarithm of the softmax. The buffers after the whole line are those after each segment
  run from the contents after the one before. Each segment is read at an arbitrary contents `U` of the buffers at its
  start, with the Laplacian as the gather-scale-scatter at the edge data `U` holds (Proof/Edge.lean), so neither the
  weights — which every use of the Laplacian shares — nor the hidden features are ever written out inside a later stage;
  the first segment gives the edge data as functions of the edge list.
  The operations of a called function (the two selects against a zero, the first layer's clipping, the softmax) are
  stated over references that carry their tensor type; at these literal references the transport of contents to and from
  the buffer's own type is the identity, which is removed before the two sides are compared.
-/
import proofs.«111802_j29386166239457_1_alg».proof.Proof.RefRun
import proofs.«111802_j29386166239457_1_alg».proof.Proof.Edge
import proofs.«111802_j29386166239457_1_alg».proof.Proof.HostLayers
import Idealize.ShloMosaic.Lib.StableHlo.Run

set_option maxRecDepth 16384

noncomputable section

namespace Cert.ReferenceIdeal.Stages

open Cert.ReferenceIdeal Cert.ReferenceIdeal.Gen Cert.ReferenceIdeal.ValueP Idealize.ShloMosaic Idealize.ShloMosaic.TcCoe
open Idealize.SL.Sem Idealize.ShloMosaic.StableHlo

/-- The four segments of @main's line. -/
def ops1 : List (HloOp τ sig (Elt Ideal)) := (ops (F := Ideal)).take 46
def ops2 : List (HloOp τ sig (Elt Ideal)) := ((ops (F := Ideal)).drop 46).take 25
def ops3 : List (HloOp τ sig (Elt Ideal)) := (((ops (F := Ideal)).drop 46).drop 25).take 22
def ops4 : List (HloOp τ sig (Elt Ideal)) := (((ops (F := Ideal)).drop 46).drop 25).drop 22

theorem ops_split : (ops (F := Ideal) : List (HloOp τ sig (Elt Ideal))) = ops1 ++ (ops2 ++ (ops3 ++ ops4)) := by
  unfold ops1 ops2 ops3 ops4
  rw [List.take_append_drop, List.take_append_drop, List.take_append_drop]

/-- The fold over joined lists is the folds in turn. -/
theorem after_join (l₁ l₂ : List (HloOp τ sig (Elt Ideal))) (V : Valuation τ sig (Elt Ideal)) :
    after (l₁ ++ l₂) V = after l₂ (after l₁ V) := by
  induction l₁ generalizing V with
  | nil => rfl
  | cons op l ih => rw [List.cons_append, after_cons, after_cons, ih]

/-- The first layer as the host computes it, at given edge data (targets r, weights w, sources c). -/
def hiddenAt (x : FVec Ideal S50000x64 .f32) (r : (⟨S800000, .i32⟩ : BufTy).Contents (Elt Ideal))
    (w : FVec Ideal S800000 .f32) (c : (⟨S800000, .i32⟩ : BufTy).Contents (Elt Ideal))
    (W0 W1 : FVec Ideal S64x64 .f32) (b : FVec Ideal S64 .f32) : FVec Ideal S50000x64 .f32 :=
  maximumf (Layers.pre64 x (Edge.spread (F := Ideal) r w c x) W0 W1 b)
    (broadcastInDim S50000x64 ![] bcast_S_S50000x64 (constant (F := Ideal) S_ .f32 0x00000000#32))

/-- Contents moved to a typed reference's buffer type and back are unchanged. -/
theorem ofBuf_toBuf {T : BufTy} (x : TRef sig T) (v : T.Contents (Elt Ideal)) : x.ofBuf (x.toBuf v) = v := by
  show cast _ (cast _ v) = v
  rw [cast_cast, cast_eq]

/-! At a literal reference whose buffer type is the tensor type it carries, moving contents to or from the buffer's own type
is the identity. One statement per reference the called functions' operations read or write next to plain operations. -/

theorem toBuf_v13 (h1 h2 h3) (v : (⟨S50000, .f32⟩ : BufTy).Contents (Elt Ideal)) :
    (TRef.of (sig := sig) (T := ⟨S50000, .f32⟩) main_v13 h1 h2 h3).toBuf v = v := rfl
theorem toBuf_v31 (h1 h2 h3) (v : (⟨S800000, .f32⟩ : BufTy).Contents (Elt Ideal)) :
    (TRef.of (sig := sig) (T := ⟨S800000, .f32⟩) main_v31 h1 h2 h3).toBuf v = v := rfl
theorem ofBuf_v9 (h1 h2 h3) (v : (⟨S50000, .i1⟩ : BufTy).Contents (Elt Ideal)) :
    (TRef.of (sig := sig) (T := ⟨S50000, .i1⟩) main_v9 h1 h2 h3).ofBuf v = v := rfl
theorem ofBuf_v12 (h1 h2 h3) (v : (⟨S50000, .f32⟩ : BufTy).Contents (Elt Ideal)) :
    (TRef.of (sig := sig) (T := ⟨S50000, .f32⟩) main_v12 h1 h2 h3).ofBuf v = v := rfl
theorem ofBuf_cst_3 (h1 h2 h3) (v : (⟨S_, .f32⟩ : BufTy).Contents (Elt Ideal)) :
    (TRef.of (sig := sig) (T := ⟨S_, .f32⟩) main_cst_3 h1 h2 h3).ofBuf v = v := rfl
theorem ofBuf_v30 (h1 h2 h3) (v : (⟨S800000, .i1⟩ : BufTy).Contents (Elt Ideal)) :
    (TRef.of (sig := sig) (T := ⟨S800000, .i1⟩) main_v30 h1 h2 h3).ofBuf v = v := rfl
theorem ofBuf_v29 (h1 h2 h3) (v : (⟨S800000, .f32⟩ : BufTy).Contents (Elt Ideal)) :
    (TRef.of (sig := sig) (T := ⟨S800000, .f32⟩) main_v29 h1 h2 h3).ofBuf v = v := rfl
theorem ofBuf_cst_7 (h1 h2 h3) (v : (⟨S_, .f32⟩ : BufTy).Contents (Elt Ideal)) :
    (TRef.of (sig := sig) (T := ⟨S_, .f32⟩) main_cst_7 h1 h2 h3).ofBuf v = v := rfl

variable (U : Valuation τ sig (Elt Ideal))

/-! ## The first segment: the edge data -/

theorem s1_row : after ops1 U (Proc.devRef .tc main_v1) = Edge.rowOf (F := Ideal) (U (Proc.devRef .tc main_arg1)) := by
  unfold ops1
  simp only [ops, List.take_succ_cons, List.take_zero]
  after_results_simp
  rfl

theorem s1_col : after ops1 U (Proc.devRef .tc main_v3) = Edge.colOf (F := Ideal) (U (Proc.devRef .tc main_arg1)) := by
  unfold ops1
  simp only [ops, List.take_succ_cons, List.take_zero]
  after_results_simp
  rfl

theorem s1_weight : after ops1 U (Proc.devRef .tc main_v31) = Edge.weight (F := Ideal) (U (Proc.devRef .tc main_arg1)) := by
  unfold ops1
  simp only [ops, List.take_succ_cons, List.take_zero]
  after_results_simp
  simp only [ofBuf_toBuf, toBuf_v13, toBuf_v31, ofBuf_v9, ofBuf_v12, ofBuf_cst_3, ofBuf_v30, ofBuf_v29, ofBuf_cst_7]
  rfl

theorem s1_arg0 : after ops1 U (Proc.devRef .tc main_arg0) = U (Proc.devRef .tc main_arg0) := by
  unfold ops1; simp only [ops, List.take_succ_cons, List.take_zero]; after_results_simp
theorem s1_arg2 : after ops1 U (Proc.devRef .tc main_arg2) = U (Proc.devRef .tc main_arg2) := by
  unfold ops1; simp only [ops, List.take_succ_cons, List.take_zero]; after_results_simp
theorem s1_arg3 : after ops1 U (Proc.devRef .tc main_arg3) = U (Proc.devRef .tc main_arg3) := by
  unfold ops1; simp only [ops, List.take_succ_cons, List.take_zero]; after_results_simp
theorem s1_arg4 : after ops1 U (Proc.devRef .tc main_arg4) = U (Proc.devRef .tc main_arg4) := by
  unfold ops1; simp only [ops, List.take_succ_cons, List.take_zero]; after_results_simp
theorem s1_arg5 : after ops1 U (Proc.devRef .tc main_arg5) = U (Proc.devRef .tc main_arg5) := by
  unfold ops1; simp only [ops, List.take_succ_cons, List.take_zero]; after_results_simp
theorem s1_arg6 : after ops1 U (Proc.devRef .tc main_arg6) = U (Proc.devRef .tc main_arg6) := by
  unfold ops1; simp only [ops, List.take_succ_cons, List.take_zero]; after_results_simp
theorem s1_arg7 : after ops1 U (Proc.devRef .tc main_arg7) = U (Proc.devRef .tc main_arg7) := by
  unfold ops1; simp only [ops, List.take_succ_cons, List.take_zero]; after_results_simp

/-! ## The second segment: the first layer at the edge data the buffers hold -/

theorem s2_hidden : after ops2 U (Proc.devRef .tc main_v51)
    = hiddenAt (U (Proc.devRef .tc main_arg0)) (U (Proc.devRef .tc main_v1)) (U (Proc.devRef .tc main_v31))
        (U (Proc.devRef .tc main_v3)) (U (Proc.devRef .tc main_arg2)) (U (Proc.devRef .tc main_arg3))
        (U (Proc.devRef .tc main_arg4)) := by
  unfold ops2
  simp only [ops, List.drop_succ_cons, List.drop_zero, List.take_succ_cons, List.take_zero]
  after_results_simp
  simp only [TRef.toBuf, TRef.ofBuf, cast_eq]
  rfl

theorem s2_v1 : after ops2 U (Proc.devRef .tc main_v1) = U (Proc.devRef .tc main_v1) := by
  unfold ops2; simp only [ops, List.drop_succ_cons, List.drop_zero, List.take_succ_cons, List.take_zero]; after_results_simp
theorem s2_v3 : after ops2 U (Proc.devRef .tc main_v3) = U (Proc.devRef .tc main_v3) := by
  unfold ops2; simp only [ops, List.drop_succ_cons, List.drop_zero, List.take_succ_cons, List.take_zero]; after_results_simp
theorem s2_v31 : after ops2 U (Proc.devRef .tc main_v31) = U (Proc.devRef .tc main_v31) := by
  unfold ops2; simp only [ops, List.drop_succ_cons, List.drop_zero, List.take_succ_cons, List.take_zero]; after_results_simp
theorem s2_arg5 : after ops2 U (Proc.devRef .tc main_arg5) = U (Proc.devRef .tc main_arg5) := by
  unfold ops2; simp only [ops, List.drop_succ_cons, List.drop_zero, List.take_succ_cons, List.take_zero]; after_results_simp
theorem s2_arg6 : after ops2 U (Proc.devRef .tc main_arg6) = U (Proc.devRef .tc main_arg6) := by
  unfold ops2; simp only [ops, List.drop_succ_cons, List.drop_zero, List.take_succ_cons, List.take_zero]; after_results_simp
theorem s2_arg7 : after ops2 U (Proc.devRef .tc main_arg7) = U (Proc.devRef .tc main_arg7) := by
  unfold ops2; simp only [ops, List.drop_succ_cons, List.drop_zero, List.take_succ_cons, List.take_zero]; after_results_simp

/-! ## The third segment: the second layer's pre-activation -/

theorem s3_pre : after ops3 U (Proc.devRef .tc main_v70)
    = Layers.pre40 (U (Proc.devRef .tc main_v51))
        (Edge.spread (F := Ideal) (U (Proc.devRef .tc main_v1)) (U (Proc.devRef .tc main_v31)) (U (Proc.devRef .tc main_v3))
          (U (Proc.devRef .tc main_v51)))
        (U (Proc.devRef .tc main_arg5)) (U (Proc.devRef .tc main_arg6)) (U (Proc.devRef .tc main_arg7)) := by
  unfold ops3
  simp only [ops, List.drop_succ_cons, List.drop_zero, List.take_succ_cons, List.take_zero]
  after_results_simp
  rfl

/-! ## The fourth segment: the logarithm of the softmax -/

theorem s4_out : after ops4 U (Proc.devRef .tc main_v71) = Layers.logSoftmax (U (Proc.devRef .tc main_v70)) := by
  unfold ops4
  simp only [ops, List.drop_succ_cons, List.drop_zero]
  after_results_simp
  simp only [ofBuf_toBuf]
  rfl

end Cert.ReferenceIdeal.Stages

end
-- ==== Proof.RefValue.lean ====
/-
  The idealized reference's run: its result is the network of Proof/Net.lean of its arguments.

  The line of host operations is read in four segments (Proof/RefStages.lean): the edge data as functions of the edge
  list, then the first layer, the second layer's pre-activation and the softmax at that edge data. With the edge data substituted, the gather-scale-scatter is the rescaled
  Laplacian, and the two layers as the host computes them are the row functions at every row (Proof/HostLayers.lean).
  The run's statement then follows from the library's run of a line of host operations.
-/
import proofs.«111802_j29386166239457_1_alg».proof.Proof.RefStages
import proofs.«111802_j29386166239457_1_alg».proof.Proof.Net

set_option maxRecDepth 16384

noncomputable section

namespace Cert.ReferenceIdeal.RefValue

open Cert.ReferenceIdeal Cert.ReferenceIdeal.Gen Cert.ReferenceIdeal.ValueP Cert.ReferenceIdeal.Stages
open Idealize.ShloMosaic Idealize.ShloMosaic.TcCoe Idealize.SL.Sem Idealize.ShloMosaic.StableHlo

/-- At the edge data of an edge list, the two layers as the host computes them are the network. -/
theorem net_eq (x : FVec Ideal S50000x64 .f32) (ei : (⟨S2x800000, .i32⟩ : BufTy).Contents (Elt Ideal))
    (W01 W11 : FVec Ideal S64x64 .f32) (b1 : FVec Ideal S64 .f32) (W02 W12 : FVec Ideal S64x40 .f32) (b2 : FVec Ideal S40 .f32) :
    Layers.logSoftmax (Layers.pre40
        (hiddenAt x (Edge.rowOf (F := Ideal) ei) (Edge.weight (F := Ideal) ei) (Edge.colOf (F := Ideal) ei) W01 W11 b1)
        (Edge.spread (F := Ideal) (Edge.rowOf (F := Ideal) ei) (Edge.weight (F := Ideal) ei) (Edge.colOf (F := Ideal) ei)
          (hiddenAt x (Edge.rowOf (F := Ideal) ei) (Edge.weight (F := Ideal) ei) (Edge.colOf (F := Ideal) ei) W01 W11 b1))
        W02 W12 b2)
      = Cheb.net x ei W01 W11 b1 W02 W12 b2 := by
  have hH : hiddenAt x (Edge.rowOf (F := Ideal) ei) (Edge.weight (F := Ideal) ei) (Edge.colOf (F := Ideal) ei) W01 W11 b1
      = Cheb.netHidden x ei W01 W11 b1 := Layers.hidden_eq x (Edge.lap (F := Ideal) ei x) W01 W11 b1
  rw [hH]
  exact Layers.output_eq (Cheb.netHidden x ei W01 W11 b1) (Edge.lap (F := Ideal) ei (Cheb.netHidden x ei W01 W11 b1)) W02 W12 b2

variable (U : Valuation τ sig (Elt Ideal))

/-- After the whole line the result buffer holds the network of the argument buffers' contents. -/
theorem result_eq : after (ops (F := Ideal)) U (Proc.devRef .tc main_v71)
    = Cheb.net (U (Proc.devRef .tc main_arg0)) (U (Proc.devRef .tc main_arg1)) (U (Proc.devRef .tc main_arg2))
        (U (Proc.devRef .tc main_arg3)) (U (Proc.devRef .tc main_arg4)) (U (Proc.devRef .tc main_arg5))
        (U (Proc.devRef .tc main_arg6)) (U (Proc.devRef .tc main_arg7)) := by
  rw [ops_split, after_join, after_join, after_join, s4_out, s3_pre, s2_hidden, s2_v1, s2_v3, s2_v31, s2_arg5, s2_arg6,
    s2_arg7, s1_row, s1_col, s1_weight, s1_arg0, s1_arg2, s1_arg3, s1_arg4, s1_arg5, s1_arg6, s1_arg7]
  exact net_eq _ _ _ _ _ _ _ _

set_option maxHeartbeats 43200000 in
/-- THE RUN: every weakly fair execution of the idealized reference terminates, nothing faulting, with the result array at
    the network of the argument arrays and the argument arrays as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v71)
        = Cheb.net (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v71).trans (result_eq (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.RefValue

end
-- ==== Proof.lean ====
/-
  A two-layer Chebyshev graph convolution network on 50000 nodes and 800000 edges: a kernel that runs the two layers'
  feed-forward parts as two launches over ten blocks of 5000 nodes, against a reference that runs them as whole-array host
  operations.

  Both programs compute, from the edge list, the rescaled Laplacian  L~ = 2L/lambda_max - I  (lambda_max = 2) as edge
  weights, and apply it by a gather of source rows, a scaling and a scatter-add into target rows, with the same host
  operations (Proof/Edge.lean). A layer is  x · W0 + (L~ x) · W1 + b;  the first is clipped at zero, the second is followed
  by the logarithm of the softmax along each node's row (Proof/Rows.lean, Proof/Net.lean).

  * The reference's result is that network of its arguments: its line of host operations is read in two segments, and its
    whole matrix products, broadcasts and row reductions are read entry by entry (Proof/RefStages.lean,
    Proof/HostLayers.lean, Proof/RefValue.lean).
  * The kernel's result is the same network: each launch's stored block is, entry by entry, the layer's row function of the
    block's rows (Proof/Body.lean); a node's output row depends on that node's input rows only, so a step writes back its
    block of one whole-array function, and the ten blocks tile the array (Proof/Blocks.lean); the host lines before and
    between the launches compute the Laplacian's applications (Proof/HostLines.lean); the run names every buffer at the end
    (Proof/Whole.lean, Proof/KernelValue.lean).
  Over the extended reals the rounding of a matrix product's operands to a shorter format is the identity and a sum does
  not depend on its order, so the two results are equal entry by entry with no assumption on the inputs: the precondition is
  not used. The three frames are the generated frame of each kernel program and the reference's run with its result
  dropped; the idealization rewrote nothing, so there is nothing to preserve.
-/
import proofs.«111802_j29386166239457_1_alg».proof.Defs
import proofs.«111802_j29386166239457_1_alg».proof.Proof.Gen.Kernel
import proofs.«111802_j29386166239457_1_alg».proof.Proof.Gen.Kernel.Skeleton
import proofs.«111802_j29386166239457_1_alg».proof.Proof.Gen.Kernel.Launch
import proofs.«111802_j29386166239457_1_alg».proof.Proof.Gen.Kernel.Points
import proofs.«111802_j29386166239457_1_alg».proof.Proof.Gen.Kernel.Frame
import proofs.«111802_j29386166239457_1_alg».proof.Proof.Gen.KernelIdeal
import proofs.«111802_j29386166239457_1_alg».proof.Proof.Gen.KernelIdeal.Skeleton
import proofs.«111802_j29386166239457_1_alg».proof.Proof.Gen.KernelIdeal.Launch
import proofs.«111802_j29386166239457_1_alg».proof.Proof.Gen.KernelIdeal.Points
import proofs.«111802_j29386166239457_1_alg».proof.Proof.Gen.KernelIdeal.Frame
import proofs.«111802_j29386166239457_1_alg».proof.Proof.Gen.ReferenceIdeal
import proofs.«111802_j29386166239457_1_alg».proof.Proof.Gen.Pre_finite_inputs
import proofs.«111802_j29386166239457_1_alg».proof.Proof.KernelValue
import proofs.«111802_j29386166239457_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- Both idealized programs end with the result array at the network of the argument arrays, which agree. -/
theorem algebraic : Cert.algebraic_KernelIdeal_ReferenceIdeal := by
  intro m ρ m' ρ' _ hagree
  refine ⟨_, Cert.KernelIdeal.NetValue.run m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6, e7⟩ := hagree c
  rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
